-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x96 : Shape := ⟨2, ![512, 96]⟩
abbrev S96 : Shape := ⟨1, ![96]⟩
abbrev S96x32 : Shape := ⟨2, ![96, 32]⟩
abbrev S32 : Shape := ⟨1, ![32]⟩
abbrev S2x800000 : Shape := ⟨2, ![2, 800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x96 : S_.BroadcastsInDim S512x96 (![] : Fin 0 → Fin S512x96.rank)
  reducesTo_S512x96_S_d0_1 : S512x96.ReducesTo [0, 1] S_
  bcast_S_S96 : S_.BroadcastsInDim S96 (![] : Fin 0 → Fin S96.rank)
  reducesTo_S96_S_d0 : S96.ReducesTo [0] S_
  bcast_S_S96x32 : S_.BroadcastsInDim S96x32 (![] : Fin 0 → Fin S96x32.rank)
  reducesTo_S96x32_S_d0_1 : S96x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_arg5 : FVec F S96x32 .f32) (main_arg6 : FVec F S32 .f32) (main_v13 : IVec S_ 1) (main_v16 : IVec S96x32 1) : IVec S_ 1 :=
  let main_c_5 : IVec S_ 1 := constantI S_ 1 1#1
  let main_v17 : IVec S_ 1 := (fun x v => Host.reduce IntOp.andi x v reducesTo_S96x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S96x32 .f32 := Host.absf main_arg5
  let main_cst_8 : FVec F S_ .f32 := constant S_ .f32 0x7F800000#32
  let main_v25 : FVec F S96x32 .f32 := broadcastInDim S96x32 ![] bcast_S_S96x32 main_cst_8
  let main_v26 : IVec S96x32 1 := cmpf .olt main_v24 main_v25
  let main_c_9 : IVec S_ 1 := constantI S_ 1 1#1
  let main_v27 : IVec S_ 1 := (fun x v => Host.reduce IntOp.andi x v reducesTo_S96x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S50000x512 .f32) (main_arg1 : FVec F S512x96 .f32) (main_arg2 : FVec F S96 .f32) (main_arg3 : FVec F S96x32 .f32) (main_arg4 : FVec F S32 .f32) (main_arg5 : FVec F S96x32 .f32) (main_arg6 : FVec F S32 .f32) (main_arg7 : IVec S2x800000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x96 .f32 := Host.absf main_arg1
  let main_cst_0 : FVec F S_ .f32 := constant S_ .f32 0x7F800000#32
  let main_v5 : FVec F S512x96 .f32 := broadcastInDim S512x96 ![] bcast_S_S512x96 main_cst_0
  let main_v6 : IVec S512x96 1 := cmpf .olt main_v4 main_v5
  let main_c_1 : IVec S_ 1 := constantI S_ 1 1#1
  let main_v7 : IVec S_ 1 := (fun x v => Host.reduce IntOp.andi x v reducesTo_S512x96_S_d0_1 h_S_) main_v6 main_c_1
  let main_v8 : IVec S_ 1 := andi main_v3 main_v7
  let main_v9 : FVec F S96 .f32 := Host.absf main_arg2
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x32 .f32 := Host.absf main_arg3
  let main_cst_4 : FVec F S_ .f32 := constant S_ .f32 0x7F800000#32
  let main_v15 : FVec F S96x32 .f32 := broadcastInDim S96x32 ![] bcast_S_S96x32 main_cst_4
  let main_v16 : IVec S96x32 1 := cmpf .olt main_v14 main_v15
  fn_part1 (F := F) main_arg4 main_arg5 main_arg6 main_v13 main_v16
-- ==== Kernel.lean ====
abbrev S50000x512 : Shape := ⟨2, ![50000, 512]⟩
abbrev S512x96 : Shape := ⟨2, ![512, 96]⟩
abbrev S96 : Shape := ⟨1, ![96]⟩
abbrev S96x32 : Shape := ⟨2, ![96, 32]⟩
abbrev S32 : Shape := ⟨1, ![32]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x96 : Shape := ⟨2, ![50000, 96]⟩
abbrev S2000x512 : Shape := ⟨2, ![2000, 512]⟩
abbrev S2000x1 : Shape := ⟨2, ![2000, 1]⟩
abbrev S2000x96 : Shape := ⟨2, ![2000, 96]⟩
abbrev S800000x96 : Shape := ⟨2, ![800000, 96]⟩
abbrev S96x64 : Shape := ⟨2, ![96, 64]⟩
abbrev S64 : Shape := ⟨1, ![64]⟩
abbrev S1x64 : Shape := ⟨2, ![1, 64]⟩
abbrev S1x96 : Shape := ⟨2, ![1, 96]⟩
abbrev S50000x64 : Shape := ⟨2, ![50000, 64]⟩
abbrev S2000x64 : Shape := ⟨2, ![2000, 64]⟩
abbrev S800000x64 : Shape := ⟨2, ![800000, 64]⟩
abbrev S50000x32 : Shape := ⟨2, ![50000, 32]⟩

abbrev nBuf : Space → Nat
  | .hbm => 60
  | .vmem => 26
  | .smem => 0
  | _ => 0

abbrev bufTy : (tb : Table) → Fin (tcTables nBuf tb) → BufTy
  | .hbm, ⟨0, _⟩ => ⟨S50000x512, .f32⟩
  | .hbm, ⟨1, _⟩ => ⟨S512x96, .f32⟩
  | .hbm, ⟨2, _⟩ => ⟨S96, .f32⟩
  | .hbm, ⟨3, _⟩ => ⟨S96x32, .f32⟩
  | .hbm, ⟨4, _⟩ => ⟨S32, .f32⟩
  | .hbm, ⟨5, _⟩ => ⟨S96x32, .f32⟩
  | .hbm, ⟨6, _⟩ => ⟨S32, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000x96, .bf16⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x96, .bf16⟩
  | .hbm, ⟨33, _⟩ => ⟨S800000x96, .f32⟩
  | .hbm, ⟨34, _⟩ => ⟨S_, .f32⟩
  | .hbm, ⟨35, _⟩ => ⟨S50000x96, .f32⟩
  | .hbm, ⟨36, _⟩ => ⟨S800000x1, .i32⟩
  | .hbm, ⟨37, _⟩ => ⟨S50000x96, .f32⟩
  | .hbm, ⟨38, _⟩ => ⟨S96x64, .f32⟩
  | .hbm, ⟨39, _⟩ => ⟨S64, .f32⟩
  | .hbm, ⟨40, _⟩ => ⟨S1x64, .f32⟩
  | .hbm, ⟨41, _⟩ => ⟨S1x96, .f32⟩
  | .hbm, ⟨42, _⟩ => ⟨S50000x64, .bf16⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x64, .bf16⟩
  | .hbm, ⟨52, _⟩ => ⟨S800000x64, .f32⟩
  | .hbm, ⟨53, _⟩ => ⟨S_, .f32⟩
  | .hbm, ⟨54, _⟩ => ⟨S50000x64, .f32⟩
  | .hbm, ⟨55, _⟩ => ⟨S800000x1, .i32⟩
  | .hbm, ⟨56, _⟩ => ⟨S50000x64, .f32⟩
  | .hbm, ⟨57, _⟩ => ⟨S50000x64, .f32⟩
  | .hbm, ⟨58, _⟩ => ⟨S50000x32, .f32⟩
  | .hbm, ⟨59, _⟩ => ⟨S50000x32, .f32⟩
  | .local _ .vmem, ⟨0, _⟩ => ⟨S2000x512, .f32⟩
  | .local _ .vmem, ⟨1, _⟩ => ⟨S2000x512, .f32⟩
  | .local _ .vmem, ⟨2, _⟩ => ⟨S512x96, .f32⟩
  | .local _ .vmem, ⟨3, _⟩ => ⟨S2000x1, .f32⟩
  | .local _ .vmem, ⟨4, _⟩ => ⟨S2000x1, .f32⟩
  | .local _ .vmem, ⟨5, _⟩ => ⟨S2000x96, .bf16⟩
  | .local _ .vmem, ⟨6, _⟩ => ⟨S2000x96, .bf16⟩
  | .local _ .vmem, ⟨7, _⟩ => ⟨S2000x96, .f32⟩
  | .local _ .vmem, ⟨8, _⟩ => ⟨S2000x96, .f32⟩
  | .local _ .vmem, ⟨9, _⟩ => ⟨S2000x96, .bf16⟩
  | .local _ .vmem, ⟨10, _⟩ => ⟨S2000x96, .bf16⟩
  | .local _ .vmem, ⟨11, _⟩ => ⟨S2000x1, .f32⟩
  | .local _ .vmem, ⟨12, _⟩ => ⟨S2000x1, .f32⟩
  | .local _ .vmem, ⟨13, _⟩ => ⟨S1x96, .f32⟩
  | .local _ .vmem, ⟨14, _⟩ => ⟨S96x64, .f32⟩
  | .local _ .vmem, ⟨15, _⟩ => ⟨S2000x64, .bf16⟩
  | .local _ .vmem, ⟨16, _⟩ => ⟨S2000x64, .bf16⟩
  | .local _ .vmem, ⟨17, _⟩ => ⟨S2000x64, .f32⟩
  | .local _ .vmem, ⟨18, _⟩ => ⟨S2000x64, .f32⟩
  | .local _ .vmem, ⟨19, _⟩ => ⟨S2000x64, .bf16⟩
  | .local _ .vmem, ⟨20, _⟩ => ⟨S2000x64, .bf16⟩
  | .local _ .vmem, ⟨21, _⟩ => ⟨S2000x1, .f32⟩
  | .local _ .vmem, ⟨22, _⟩ => ⟨S2000x1, .f32⟩
  | .local _ .vmem, ⟨23, _⟩ => ⟨S1x64, .f32⟩
  | .local _ .vmem, ⟨24, _⟩ => ⟨S2000x64, .f32⟩
  | .local _ .vmem, ⟨25, _⟩ => ⟨S2000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x96 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x96 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x96_S512x96_0_0 : ∀ a, (![0, 0] : Fin 2 → Nat) a + S512x96.size a ≤ S512x96.size a
  h_S512x96 : 0 < S512x96.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x96 : S2000x1.Broadcasts S2000x96
  inb_S2000x96_S2000x96_0_0 : ∀ a, (![0, 0] : Fin 2 → Nat) a + S2000x96.size a ≤ S2000x96.size a
  h_S2000x96 : 0 < S2000x96.numel
  packedbf16_S2000x96_S2000x96_0_0 : (Rect.unit (s := S2000x96) ![0, 0] S2000x96.size inb_S2000x96_S2000x96_0_0).PackedRows (EltTy.packing .bf16)
  bcast_S_S50000x96 : S_.BroadcastsInDim S50000x96 (![] : Fin 0 → Fin S50000x96.rank)
  concatenates_S96x32_S96x32_S96x64_d1 : Shape.Concatenates [S96x32, S96x32] S96x64 1
  concatenates_S32_S32_S64_d0 : Shape.Concatenates [S32, S32] S64 0
  shapeCasts_S64_S1x64 : S64.ShapeCasts S1x64
  shapeCasts_S96_S1x96 : S96.ShapeCasts S1x96
  shapeCasts_S2000x96_S2000x96 : S2000x96.ShapeCasts S2000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  inb_S96x64_S96x64_0_0 : ∀ a, (![0, 0] : Fin 2 → Nat) a + S96x64.size a ≤ S96x64.size a
  h_S96x64 : 0 < S96x64.numel
  shapeCasts_S96x64_S96x64 : S96x64.ShapeCasts S96x64
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S50000x64 : S_.BroadcastsInDim S50000x64 (![] : Fin 0 → Fin S50000x64.rank)
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  slices_S50000x64_S50000x32_0_0 : S50000x64.Slices ![0, 0] S50000x32
  slices_S50000x64_S50000x32_0_32 : S50000x64.Slices ![0, 32] S50000x32
  scatter_S50000_S800000x1_S800000_n_0_0_1_wf : ScatterDims.WF S50000 S800000x1 S800000 [] [0] [0] 1
  dot_S2000x512_S512x96_S2000x96_1_0_0_1_n_n_wf : DotDims.WF S2000x512 S512x96 S2000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x64_S2000x64_1_0_0_1_n_n_wf : DotDims.WF S2000x96 S96x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x96.size a ≤ S512x96.size a
  hwx0_1 : ∀ i : grid0.Coords, EltTy.bits .f32 = 32 ∨ (Rect.block (s := S512x96) S512x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x96.size a ≤ S50000x96.size a
  hwx0_3 : ∀ i : grid0.Coords, EltTy.bits .bf16 = 32 ∨ (Rect.block (s := S50000x96) S2000x96.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x96.size a ≤ S50000x96.size a
  hwx1_1 : ∀ i : grid1.Coords, EltTy.bits .bf16 = 32 ∨ (Rect.block (s := S50000x96) S2000x96.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x64.size a ≤ S96x64.size a
  hwx1_4 : ∀ i : grid1.Coords, EltTy.bits .f32 = 32 ∨ (Rect.block (s := S96x64) S96x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .bf16 = 32 ∨ (Rect.block (s := S50000x64) S2000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .bf16 = 32 ∨ (Rect.block (s := S50000x64) S2000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S50000x64.size a
  hwx2_4 : ∀ i : grid2.Coords, EltTy.bits .f32 = 32 ∨ (Rect.block (s := S50000x64) S2000x64.size (cc2_transform_4 i) (hinb2_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x512_S512x96_S2000x96_1_0_0_1_n_n : DotDims S2000x512 S512x96 S2000x96 where
  lhsContracting := [1]
  rhsContracting := [0]
  lhsNonContracting := [0]
  rhsNonContracting := [1]
  lhsBatch := []
  rhsBatch := []
  wf := dot_S2000x512_S512x96_S2000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x64_S2000x64_1_0_0_1_n_n : DotDims S2000x96 S96x64 S2000x64 where
  lhsContracting := [1]
  rhsContracting := [0]
  lhsNonContracting := [0]
  rhsNonContracting := [1]
  lhsBatch := []
  rhsBatch := []
  wf := dot_S2000x96_S96x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S96x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v39) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x512 : Shape := ⟨2, ![50000, 512]⟩
abbrev S512x96 : Shape := ⟨2, ![512, 96]⟩
abbrev S96 : Shape := ⟨1, ![96]⟩
abbrev S96x32 : Shape := ⟨2, ![96, 32]⟩
abbrev S32 : Shape := ⟨1, ![32]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x96 : Shape := ⟨2, ![50000, 96]⟩
abbrev S800000x96 : Shape := ⟨2, ![800000, 96]⟩
abbrev S50000x1 : Shape := ⟨2, ![50000, 1]⟩
abbrev S1x96 : Shape := ⟨2, ![1, 96]⟩
abbrev S50000x32 : Shape := ⟨2, ![50000, 32]⟩
abbrev S800000x32 : Shape := ⟨2, ![800000, 32]⟩
abbrev S1x32 : Shape := ⟨2, ![1, 32]⟩

abbrev nBuf : Space → Nat
  | .hbm => 157
  | .vmem => 0
  | .smem => 0
  | _ => 0

abbrev hbmTy0_0 (i : Nat) : BufTy := match i % 128 with
  | 0 => ⟨S50000x512, .f32⟩
  | 1 => ⟨S512x96, .f32⟩
  | 2 => ⟨S96, .f32⟩
  | 3 => ⟨S96x32, .f32⟩
  | 4 => ⟨S32, .f32⟩
  | 5 => ⟨S96x32, .f32⟩
  | 6 => ⟨S32, .f32⟩
  | 7 => ⟨S2x800000, .i32⟩
  | 8 => ⟨S1x800000, .i32⟩
  | 9 => ⟨S800000, .i32⟩
  | 10 => ⟨S1x800000, .i32⟩
  | 11 => ⟨S800000, .i32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .f32⟩
  | 21 => ⟨S50000, .f32⟩
  | 22 => ⟨S50000x96, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x96, .f32⟩
  | 51 => ⟨S800000x1, .f32⟩
  | 52 => ⟨S800000x96, .f32⟩
  | 53 => ⟨S800000x96, .f32⟩
  | 54 => ⟨S_, .f32⟩
  | 55 => ⟨S50000x96, .f32⟩
  | 56 => ⟨S800000x1, .i32⟩
  | 57 => ⟨S50000x96, .f32⟩
  | 58 => ⟨S50000, .f32⟩
  | 59 => ⟨S50000x1, .f32⟩
  | 60 => ⟨S50000x96, .f32⟩
  | 61 => ⟨S50000x96, .f32⟩
  | 62 => ⟨S50000x96, .f32⟩
  | 63 => ⟨S1x96, .f32⟩
  | 64 => ⟨S50000x96, .f32⟩
  | 65 => ⟨S50000x96, .f32⟩
  | 66 => ⟨S_, .f32⟩
  | 67 => ⟨S50000x96, .f32⟩
  | 68 => ⟨S50000x96, .f32⟩
  | 69 => ⟨S50000x32, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000, .f32⟩
  | 88 => ⟨S800000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x32, .f32⟩
  | 98 => ⟨S800000x1, .f32⟩
  | 99 => ⟨S800000x32, .f32⟩
  | 100 => ⟨S800000x32, .f32⟩
  | 101 => ⟨S_, .f32⟩
  | 102 => ⟨S50000x32, .f32⟩
  | 103 => ⟨S800000x1, .i32⟩
  | 104 => ⟨S50000x32, .f32⟩
  | 105 => ⟨S50000, .f32⟩
  | 106 => ⟨S50000x1, .f32⟩
  | 107 => ⟨S50000x32, .f32⟩
  | 108 => ⟨S50000x32, .f32⟩
  | 109 => ⟨S50000x32, .f32⟩
  | 110 => ⟨S1x32, .f32⟩
  | 111 => ⟨S50000x32, .f32⟩
  | 112 => ⟨S50000x32, .f32⟩
  | 113 => ⟨S50000x32, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000, .f32⟩
  | 123 => ⟨S_, .i32⟩
  | 124 => ⟨S800000, .i32⟩
  | 125 => ⟨S800000, .i1⟩
  | 126 => ⟨S_, .i32⟩
  | 127 => ⟨S800000, .i32⟩
  | _ => ⟨S50000x512, .f32⟩

abbrev hbmTy0_1 (i : Nat) : BufTy := match i % 128 with
  | 0 => ⟨S800000, .i32⟩
  | 1 => ⟨S800000, .i32⟩
  | 2 => ⟨S800000x1, .i32⟩
  | 3 => ⟨S800000, .f32⟩
  | 4 => ⟨S800000, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x32, .f32⟩
  | 14 => ⟨S800000x1, .f32⟩
  | 15 => ⟨S800000x32, .f32⟩
  | 16 => ⟨S800000x32, .f32⟩
  | 17 => ⟨S_, .f32⟩
  | 18 => ⟨S50000x32, .f32⟩
  | 19 => ⟨S800000x1, .i32⟩
  | 20 => ⟨S50000x32, .f32⟩
  | 21 => ⟨S50000, .f32⟩
  | 22 => ⟨S50000x1, .f32⟩
  | 23 => ⟨S50000x32, .f32⟩
  | 24 => ⟨S50000x32, .f32⟩
  | 25 => ⟨S50000x32, .f32⟩
  | 26 => ⟨S1x32, .f32⟩
  | 27 => ⟨S50000x32, .f32⟩
  | 28 => ⟨S50000x32, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_c_15 : Ref sig .tc := ⟨.hbm, 114, rfl⟩
abbrev main_v87 : Ref sig .tc := ⟨.hbm, 115, rfl⟩
abbrev main_v88 : Ref sig .tc := ⟨.hbm, 116, rfl⟩
abbrev main_c_16 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_17 : Ref sig .tc := ⟨.hbm, 123, rfl⟩
abbrev main_v94 : Ref sig .tc := ⟨.hbm, 124, rfl⟩
abbrev main_v95 : Ref sig .tc := ⟨.hbm, 125, rfl⟩
abbrev main_c_18 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_c_19 : Ref sig .tc := ⟨.hbm, 133, rfl⟩
abbrev main_v102 : Ref sig .tc := ⟨.hbm, 134, rfl⟩
abbrev main_v103 : Ref sig .tc := ⟨.hbm, 135, rfl⟩
abbrev main_c_20 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_21 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S800000x1_S800000x32_0_1 : S800000x1.BroadcastsInDim S800000x32 (![0, 1] : Fin 2 → Fin S800000x32.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S800000x1_S800000_n_0_0_1_wf : ScatterDims.WF S50000 S800000x1 S800000 [] [0] [0] 1
  dot_S50000x512_S512x96_S50000x96_1_0_0_1_n_n_wf : DotDims.WF S50000x512 S512x96 S50000x96 [1] [0] [0] [1] [] []
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x32_S50000x32_1_0_0_1_n_n_wf : DotDims.WF S50000x96 S96x32 S50000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x512_S512x96_S50000x96_1_0_0_1_n_n : DotDims S50000x512 S512x96 S50000x96 where
  lhsContracting := [1]
  rhsContracting := [0]
  lhsNonContracting := [0]
  rhsNonContracting := [1]
  lhsBatch := []
  rhsBatch := []
  wf := dot_S50000x512_S512x96_S50000x96_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x32_S50000x32_1_0_0_1_n_n : DotDims S50000x96 S96x32 S50000x32 where
  lhsContracting := [1]
  rhsContracting := [0]
  lhsNonContracting := [0]
  rhsNonContracting := [1]
  lhsBatch := []
  rhsBatch := []
  wf := dot_S50000x96_S96x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf

class Facts : Prop extends Facts₀ where

variable [Facts]
-- ==== Proof.KernelRun.lean ====
/-
  The run of the three-call program with its two results named.

  The program is seven segments: host operations, the first call (a scaled matrix product), host operations (the
  first aggregation over edges), the second call (combine, rectify, second matrix product), host operations (the
  second aggregation), the third call (combine), and two column slices. The buffer contents at the seven segment
  boundaries form a fold from the launch memory; every weakly fair execution ends with each unscoped buffer at the
  last boundary's contents. Read at the two result buffers this names the results; read at the eight argument
  buffers it says they are unchanged.
-/
import proofs.«109903_j13417477833490_2_alg».proof.Proof.Gen.KernelIdeal.Frame

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the two result buffers end at the last boundary's
    contents and the eight argument buffers end as launched. -/
theorem run_results : θ_run defs (onTc (τ := τ) (main (F := F))) ⟨m, fun _ => 0, ρ⟩ (fun r => ∀ c : Dev nD,
      r.2.mem ((c.tc : Thread nD τ).loc main_v41) = W7 m ρ c (Proc.devRef .tc main_v41)
      ∧ r.2.mem ((c.tc : Thread nD τ).loc main_v42) = W7 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v41 (by decide)),
       h c _ (mem_uc main_v42 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Results

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.LibColumn.lean ====
/-
  Layout facts about columns and rows, independent of any program.

  A column is an array of shape [a, 1]. Broadcasting it to [a, b] repeats each row's single entry across the b
  positions of that row, so the entry at (p, c) is the column's entry at row p. Casting a vector of shape [a] to the
  column shape [a, 1] keeps the row-major order, so the entry at (i, 0) is the vector's entry at i.

  The host spells the same repetitions with an explicit map from the operand's axes to the result's axes: a vector
  [b] placed on axis 1 of [1, b] is read at its own position; a vector [a] placed on axis 0 of [a, 1] likewise; a row
  [1, b] or a column [a, 1] repeated to [a, b] is read at the one row, or the one column, it has; a scalar repeated to
  any shape is read at its one entry.
-/
import Idealize.ShloMosaic.Lib.ValueIdx
import Idealize.ShloMosaic.Lib.Pipeline.Value

noncomputable section

namespace Cert.Lib

open Idealize.ShloMosaic Idealize.ShloMosaic.ValueIdx

variable {α : Type}

/-- A column [a, 1] broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column shape [a, 1] reads, at (i, u), the vector's entry at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector [b] placed on axis 1 of [1, b] reads, at (u, q), the vector's entry at q. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A vector [a] placed on axis 0 of [a, 1] reads, at (p, u), the vector's entry at p. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A row [1, b] repeated to [a, b], axes kept in place, reads at (p, q) the row's entry at q. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ => rfl
  | ⟨1, _⟩ =>
    show q.val = if b = 1 then 0 else q.val
    split
    · have := q.isLt; omega
    · rfl

/-- A column [a, 1] repeated to [a, b], axes kept in place, reads at (p, q) the column's entry at p. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-- A scalar repeated to any shape reads, everywhere, its one entry. -/
theorem broadcastInDim_scalar_apply {s : Shape} (x : (⟨0, ![]⟩ : Shape).Idx → α)
    (h : (⟨0, ![]⟩ : Shape).BroadcastsInDim s ![]) (i : s.Idx) :
    broadcastInDim s ![] h x i = x ix0 :=
  broadcastInDim_apply ![] h x i ix0 fun ax => ax.elim0

end Cert.Lib

end
-- ==== Proof.Region0.lean ====
/-
  The first call: the scaled matrix product, as one function of the arrays it finds.

  The call runs over 25 grid points; point t loads rows 2000·t … 2000·t + 1999 of x, all of W, and the same rows
  of the weight column dis, and writes the same rows of the result. Inside a block, entry (r, q) of the result is
  (∑_k x(r, k) · W(k, q)) · dis(r): a matrix product into a zero accumulator, times the row's weight (the changes of
  float format are the identity on the extended reals). The 25 blocks tile the 50000 rows, so the whole result array
  is the function  (p, q) ↦ (∑_k x(p, k) · W(k, q)) · dis(p, 0)  of the arrays the call finds.
-/
import proofs.«109903_j13417477833490_2_alg».proof.Proof.Gen.KernelIdeal.Frame
import proofs.«109903_j13417477833490_2_alg».proof.Proof.LibPlainDot
import proofs.«109903_j13417477833490_2_alg».proof.Proof.LibColumn
import Idealize.ShloMosaic.Lib.ValueIdx
import Idealize.ShloMosaic.Lib.Pipeline.Value
import Idealize.ShloMosaic.PureOps.Ideal.Laws

set_option maxRecDepth 16384

noncomputable section

namespace Cert.KernelIdeal.Region0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- Entry (p, q) of the scaled product. -/
def scaled (x : S50000x512.Idx → EReal) (w : S512x96.Idx → EReal) (d : S50000x1.Idx → EReal) (p : Fin 50000) (q : Fin 96) :
    EReal :=
  (∑ k : Fin 512, x (ix2 p k) * w (ix2 k q)) * d (ix2 p (0 : Fin 1))

/-- The scaled product as an array. -/
def scaledArr (x : S50000x512.Idx → EReal) (w : S512x96.Idx → EReal) (d : S50000x1.Idx → EReal) : S50000x96.Idx → EReal :=
  fun i => scaled x w d ⟨(i 0).val, idx2_lt0 i⟩ ⟨(i 1).val, idx2_lt1 i⟩

theorem scaledArr_apply (x w d) (p : Fin 50000) (q : Fin 96) : scaledArr x w d (ix2 p q) = scaled x w d p q := rfl

theorem hz : (![0, 0] : Fin 2 → Nat) = fun _ => 0 := funext fun a => by fin_cases a <;> rfl

/-- One block: entry (r, q) of what the body stores, from the three blocks it loads. -/
theorem pay_apply (x0 : Vec Ideal S2000x512 .f32) (x1 : Vec Ideal S512x96 .f32) (x2 : Vec Ideal S2000x1 .f32)
    (r : Fin 2000) (q : Fin 96) :
    k0_pay1 (F := Ideal) x0 x1 x2 (ix2 r q) = (∑ k : Fin 512, x0 (ix2 r k) * x1 (ix2 k q)) * x2 (ix2 r (0 : Fin 1)) := by
  have h1 : FloatOps.matmul (F := Ideal) (φ₁ := .bf16) (φ₂ := .bf16) dot_S2000x512_S512x96_S2000x96_1_0_0_1_n_n none x0 x1
      (constant (F := Ideal) S2000x96 .f32 0x00000000#32) (ix2 r q) = ∑ k : Fin 512, x0 (ix2 r k) * x1 (ix2 k q) :=
    Cert.Lib.matmul_zero_apply (φ₁ := .bf16) (φ₂ := .bf16) Facts₀.dot_S2000x512_S512x96_S2000x96_1_0_0_1_n_n_wf none x0 x1 r q
  have h2 : broadcastTo S2000x96 (shapeCast S2000x1 x2 shapeCasts_S2000x1_S2000x1) broadcasts_S2000x1_S2000x96 (ix2 r q)
      = x2 (ix2 r (0 : Fin 1)) := by
    rw [shapeCast_self]
    exact Cert.Lib.broadcastTo_a1_ab_apply x2 broadcasts_S2000x1_S2000x96 r q
  rw [← h1, ← h2]
  rfl

/-- The printed index maps over the grid: the row blocks move with the point, W stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row r of block t is row 2000·t + r of the array. -/
def row (t : Fin cfg0.N) (r : Fin 2000) : Fin 50000 :=
  ⟨t.val * 2000 + r.val, by have := t.isLt; have h : cfg0.N = 25 := rfl; have := r.isLt; omega⟩

variable (V : (c : Dev nD) → (b : Ref sig .tc) → Buf (Elt Ideal) ((c : Thread nD τ).loc b))

/-- What point t writes back is block t of the scaled product of the arrays the call finds. -/
theorem flushed_eq (c : Dev nD) (t : Fin cfg0.N) :
    (dat0 V c).flushed 3 t = ((cfg0.win 3).blk t).view.read (Elt Ideal)
      (scaledArr (V c main_arg0) (V c main_arg1) (V c main_v11)) := by
  show (cfg0.win 3).cut (grid0.coords t) ((dat0 V c).after 3 t) = _
  rw [after0_3]
  unfold out0_3
  rw [View.canon_unit_zero hz]
  simp only [View.ld_unit_zero (S := S2000x512) hz, View.ld_unit_zero (S := S512x96) hz, View.ld_unit_zero (S := S2000x1) hz]
  obtain ⟨e0, e1, e2, e3, e4, e5, e6, e7⟩ := idx_facts t
  funext j
  obtain ⟨r, q, rfl⟩ : ∃ (r : Fin 2000) (q : Fin 96), j = ix2 r q := ⟨j 0, j 1, eq_ix2 j⟩
  refine (pay_apply _ _ _ r q).trans ?_
  have b0 : ∀ k : Fin 512, iblk0 V c 0 t (ix2 r k) = V c main_arg0 (ix2 (row t r) k) := fun k => by
    show V c main_arg0 (((cfg0.win 0).blk t).view.emb (ix2 r k)) = _
    refine congrArg (V c main_arg0) ?_
    funext a; apply Fin.ext
    match a with
    | ⟨0, _⟩ => show win0_0.index t (0 : Fin 2) * 2000 + 1 * r.val = t.val * 2000 + r.val; omega
    | ⟨1, _⟩ => show win0_0.index t (1 : Fin 2) * 512 + 1 * k.val = k.val; omega
  have b1 : ∀ k : Fin 512, iblk0 V c 1 t (ix2 k q) = V c main_arg1 (ix2 k q) := fun k => by
    show V c main_arg1 (((cfg0.win 1).blk t).view.emb (ix2 k q)) = _
    refine congrArg (V c main_arg1) ?_
    funext a; apply Fin.ext
    match a with
    | ⟨0, _⟩ => show win0_1.index t (0 : Fin 2) * 512 + 1 * k.val = k.val; omega
    | ⟨1, _⟩ => show win0_1.index t (1 : Fin 2) * 96 + 1 * q.val = q.val; omega
  have b2 : iblk0 V c 2 t (ix2 r (0 : Fin 1)) = V c main_v11 (ix2 (row t r) (0 : Fin 1)) := by
    show V c main_v11 (((cfg0.win 2).blk t).view.emb (ix2 r (0 : Fin 1))) = _
    refine congrArg (V c main_v11) ?_
    funext a; apply Fin.ext
    match a with
    | ⟨0, _⟩ => show win0_2.index t (0 : Fin 2) * 2000 + 1 * r.val = t.val * 2000 + r.val; omega
    | ⟨1, _⟩ => show win0_2.index t (1 : Fin 2) * 1 + 1 * 0 = 0; omega
  have b3 : ((cfg0.win 3).blk t).view.emb (ix2 r q) = ix2 (row t r) q := by
    funext a; apply Fin.ext
    match a with
    | ⟨0, _⟩ => show win0_3.index t (0 : Fin 2) * 2000 + 1 * r.val = t.val * 2000 + r.val; omega
    | ⟨1, _⟩ => show win0_3.index t (1 : Fin 2) * 96 + 1 * q.val = q.val; omega
  show _ = scaledArr (V c main_arg0) (V c main_arg1) (V c main_v11) (((cfg0.win 3).blk t).view.emb (ix2 r q))
  rw [b3, scaledArr_apply, b2]
  unfold scaled
  simp only [b0, b1]

/-- An index of the array is in point t's block iff its row is in the block's range. -/
theorem mem_blk (t : Fin cfg0.N) (i : S50000x96.Idx) :
    i ∈ ((cfg0.win 3).blk t).view.set ↔ ∀ a : Fin 2, win0_3.index t a * S2000x96.size a ≤ (i a).val ∧ (i a).val < win0_3.index t a * S2000x96.size a + S2000x96.size a := by
  show i ∈ ((View.whole main_v12).slice (win0_3.rect t)).set ↔ _
  rw [View.set_slice_whole, Rect.mem_set_unit]
  exact Iff.rfl

/-- The 25 row blocks cover the array: row p lies in block p / 2000. -/
theorem cover (i : S50000x96.Idx) : ∃ t : Fin cfg0.N, (cfg0.win 3).flush t = true ∧ i ∈ ((cfg0.win 3).blk t).view.set := by
  have hi0 : (i 0).val < 50000 := (i 0).isLt
  have hi1 : (i 1).val < 96 := (i 1).isLt
  have hN : cfg0.N = 25 := rfl
  let t : Fin cfg0.N := ⟨(i 0).val / 2000, by omega⟩
  obtain ⟨-, -, -, -, -, -, e6, e7⟩ := idx_facts t
  refine ⟨t, flush0_3 t, ?_⟩
  rw [mem_blk]
  intro a
  have ht : t.val = (i 0).val / 2000 := rfl
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 96 ≤ (i 1).val ∧ (i 1).val < win0_3.index t (1 : Fin 2) * 96 + 96; omega

/-- THE RESULT ARRAY of the first call is the scaled product of the arrays it finds. -/
theorem final (c : Dev nD) :
    (dat0 V c).arrAt 3 cfg0.N = scaledArr (V c main_arg0) (V c main_arg1) (V c main_v11) :=
  (dat0 V c).arrAt_eq_of_cover 3 _ (fun t _ => flushed_eq V c t) cover

end Cert.KernelIdeal.Region0

end
-- ==== Proof.LibRow.lean ====
/-
  A row is an array of shape [1, b]. Broadcasting it to [a, b] repeats the row a times, so the entry at (p, q) is the
  row's entry at (0, q). Independent of any program.
-/
import Idealize.ShloMosaic.Lib.ValueIdx
import Idealize.ShloMosaic.Lib.Pipeline.Value

noncomputable section

namespace Cert.Lib

open Idealize.ShloMosaic Idealize.ShloMosaic.ValueIdx

/-- A row [1, b] broadcast to [a, b] reads, at (p, q), the row's entry at (0, q). -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end Cert.Lib

end
-- ==== Proof.Region1.lean ====
/-
  The second call: combine, rectify, multiply, scale — as one function of the arrays it finds.

  The call runs over 25 grid points; point t loads rows 2000·t … 2000·t + 1999 of the aggregate a, of the scaled
  features h and of the weight column dis, the whole bias row b and the whole weight matrix W, and writes the same rows
  of the result. Inside a block the hidden entry (r, f) is max(dis(r) · (a(r, f) + h(r, f)) + b(f), 0), and entry (r, q)
  of the result is (∑_f hidden(r, f) · W(f, q)) · dis(r). The 25 blocks tile the 50000 rows, so the whole result array
  is that function of the arrays the call finds, row by row.
-/
import proofs.«109903_j13417477833490_2_alg».proof.Proof.Gen.KernelIdeal.Frame
import proofs.«109903_j13417477833490_2_alg».proof.Proof.LibPlainDot
import proofs.«109903_j13417477833490_2_alg».proof.Proof.LibColumn
import proofs.«109903_j13417477833490_2_alg».proof.Proof.LibRow
import Idealize.ShloMosaic.Lib.ValueIdx
import Idealize.ShloMosaic.Lib.Pipeline.Value
import Idealize.ShloMosaic.PureOps.Ideal.Laws

set_option maxRecDepth 16384

noncomputable section

namespace Cert.KernelIdeal.Region1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- Hidden entry (p, f): the combined and rectified first layer. -/
def hidden (a h : S50000x96.Idx → EReal) (d : S50000x1.Idx → EReal) (b : S1x96.Idx → EReal) (p : Fin 50000) (f : Fin 96) :
    EReal :=
  max (d (ix2 p (0 : Fin 1)) * (a (ix2 p f) + h (ix2 p f)) + b (ix2 (0 : Fin 1) f)) 0

/-- Entry (p, q) of the second scaled product. -/
def second (a h : S50000x96.Idx → EReal) (d : S50000x1.Idx → EReal) (b : S1x96.Idx → EReal) (w : S96x64.Idx → EReal)
    (p : Fin 50000) (q : Fin 64) : EReal :=
  (∑ f : Fin 96, hidden a h d b p f * w (ix2 f q)) * d (ix2 p (0 : Fin 1))

/-- The second scaled product as an array. -/
def secondArr (a h : S50000x96.Idx → EReal) (d : S50000x1.Idx → EReal) (b : S1x96.Idx → EReal) (w : S96x64.Idx → EReal) :
    S50000x64.Idx → EReal :=
  fun i => second a h d b w ⟨(i 0).val, idx2_lt0 i⟩ ⟨(i 1).val, idx2_lt1 i⟩

theorem secondArr_apply (a h d b w) (p : Fin 50000) (q : Fin 64) : secondArr a h d b w (ix2 p q) = second a h d b w p q := rfl

theorem hz : (![0, 0] : Fin 2 → Nat) = fun _ => 0 := funext fun a => by fin_cases a <;> rfl

/-- The hidden block as the body computes it, before the change of float format. -/
def hidBlk (x0 : Vec Ideal S2000x96 .f32) (x1 : Vec Ideal S2000x96 .bf16) (x2 : Vec Ideal S2000x1 .f32) (x3 : Vec Ideal S1x96 .f32) :
    FVec Ideal S2000x96 .f32 :=
  maximumf (addf (mulf (broadcastTo S2000x96 (shapeCast S2000x1 x2 shapeCasts_S2000x1_S2000x1) broadcasts_S2000x1_S2000x96)
      (addf (shapeCast S2000x96 x0 shapeCasts_S2000x96_S2000x96) (extf .f32 (shapeCast S2000x96 x1 shapeCasts_S2000x96_S2000x96) bitsLt_bf16_f32)))
    (broadcastTo S2000x96 (shapeCast S1x96 x3 shapeCasts_S1x96_S1x96) broadcasts_S1x96_S2000x96))
    (broadcast S2000x96 (Scalar.ofBits (F := Ideal) .f32 0x00000000#32))

/-- The hidden block at (r, f). -/
theorem hidBlk_apply (x0 : Vec Ideal S2000x96 .f32) (x1 : Vec Ideal S2000x96 .bf16) (x2 : Vec Ideal S2000x1 .f32) (x3 : Vec Ideal S1x96 .f32)
    (r : Fin 2000) (f : Fin 96) :
    hidBlk x0 x1 x2 x3 (ix2 r f) = max (x2 (ix2 r (0 : Fin 1)) * (x0 (ix2 r f) + x1 (ix2 r f)) + x3 (ix2 (0 : Fin 1) f)) 0 := by
  have hd : broadcastTo S2000x96 (shapeCast S2000x1 x2 shapeCasts_S2000x1_S2000x1) broadcasts_S2000x1_S2000x96 (ix2 r f)
      = x2 (ix2 r (0 : Fin 1)) := by
    rw [shapeCast_self]; exact Cert.Lib.broadcastTo_a1_ab_apply x2 broadcasts_S2000x1_S2000x96 r f
  have hb : broadcastTo S2000x96 (shapeCast S1x96 x3 shapeCasts_S1x96_S1x96) broadcasts_S1x96_S2000x96 (ix2 r f)
      = x3 (ix2 (0 : Fin 1) f) := by
    rw [shapeCast_self]; exact Cert.Lib.broadcastTo_1b_ab_apply x3 broadcasts_S1x96_S2000x96 r f
  have ha : shapeCast S2000x96 x0 shapeCasts_S2000x96_S2000x96 (ix2 r f) = x0 (ix2 r f) := by rw [shapeCast_self]
  have hh : shapeCast S2000x96 x1 shapeCasts_S2000x96_S2000x96 (ix2 r f) = x1 (ix2 r f) := by rw [shapeCast_self]
  have h0 : Scalar.ofBits (F := Ideal) .f32 0x00000000#32 = (0 : EReal) := Ideal.ofBits_zero_f32
  rw [← hd, ← hb, ← ha, ← hh, ← h0]
  rfl

/-- One block: entry (r, q) of what the body stores, from the five blocks it loads. -/
theorem pay_apply (x0 : Vec Ideal S2000x96 .f32) (x1 : Vec Ideal S2000x96 .bf16) (x2 : Vec Ideal S2000x1 .f32) (x3 : Vec Ideal S1x96 .f32)
    (x4 : Vec Ideal S96x64 .f32) (r : Fin 2000) (q : Fin 64) :
    k1_pay1 (F := Ideal) x0 x1 x2 x3 x4 (ix2 r q)
      = (∑ f : Fin 96, max (x2 (ix2 r (0 : Fin 1)) * (x0 (ix2 r f) + x1 (ix2 r f)) + x3 (ix2 (0 : Fin 1) f)) 0 * x4 (ix2 f q))
        * x2 (ix2 r (0 : Fin 1)) := by
  have h1 : FloatOps.matmul (F := Ideal) (φ₁ := .bf16) (φ₂ := .bf16) dot_S2000x96_S96x64_S2000x64_1_0_0_1_n_n none (hidBlk x0 x1 x2 x3)
      (shapeCast S96x64 x4 shapeCasts_S96x64_S96x64)
      (constant (F := Ideal) S2000x64 .f32 0x00000000#32) (ix2 r q)
        = ∑ f : Fin 96, hidBlk x0 x1 x2 x3 (ix2 r f) * x4 (ix2 f q) := by
    rw [shapeCast_self]
    exact Cert.Lib.matmul_zero_apply (φ₁ := .bf16) (φ₂ := .bf16) Facts₀.dot_S2000x96_S96x64_S2000x64_1_0_0_1_n_n_wf none _ x4 r q
  have h2 : broadcastTo S2000x64 (shapeCast S2000x1 x2 shapeCasts_S2000x1_S2000x1) broadcasts_S2000x1_S2000x64 (ix2 r q)
      = x2 (ix2 r (0 : Fin 1)) := by
    rw [shapeCast_self]
    exact Cert.Lib.broadcastTo_a1_ab_apply x2 broadcasts_S2000x1_S2000x64 r q
  have e : (∑ f : Fin 96, max (x2 (ix2 r (0 : Fin 1)) * (x0 (ix2 r f) + x1 (ix2 r f)) + x3 (ix2 (0 : Fin 1) f)) 0 * x4 (ix2 f q))
      = ∑ f : Fin 96, hidBlk x0 x1 x2 x3 (ix2 r f) * x4 (ix2 f q) :=
    Finset.sum_congr rfl fun f _ => by rw [hidBlk_apply]
  rw [e, ← h1, ← h2]
  rfl

/-- The printed index maps over the grid: the row blocks move with the point, the bias row and W stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row r of block t is row 2000·t + r of the array. -/
def row (t : Fin cfg1.N) (r : Fin 2000) : Fin 50000 :=
  ⟨t.val * 2000 + r.val, by have := t.isLt; have h : cfg1.N = 25 := rfl; have := r.isLt; omega⟩

variable (V : (c : Dev nD) → (b : Ref sig .tc) → Buf (Elt Ideal) ((c : Thread nD τ).loc b))

/-- What point t writes back is block t of the second scaled product of the arrays the call finds. -/
theorem flushed_eq (c : Dev nD) (t : Fin cfg1.N) :
    (dat1 V c).flushed 5 t = ((cfg1.win 5).blk t).view.read (Elt Ideal)
      (secondArr (V c main_v23) (V c main_v12) (V c main_v11) (V c main_v27) (V c main_v24)) := by
  show (cfg1.win 5).cut (grid1.coords t) ((dat1 V c).after 5 t) = _
  rw [after1_5]
  unfold out1_5
  rw [View.canon_unit_zero hz]
  simp only [View.ld_unit_zero (S := S2000x96) hz, View.ld_unit_zero (S := S2000x1) hz, View.ld_unit_zero (S := S1x96) hz,
    View.ld_unit_zero (S := S96x64) hz]
  obtain ⟨e0, e1, e2, e3, e4, e5, e6, e7, e8, e9, e10, e11⟩ := idx_facts t
  funext j
  obtain ⟨r, q, rfl⟩ : ∃ (r : Fin 2000) (q : Fin 64), j = ix2 r q := ⟨j 0, j 1, eq_ix2 j⟩
  refine (pay_apply _ _ _ _ _ r q).trans ?_
  have b0 : ∀ f : Fin 96, iblk1 V c 0 t (ix2 r f) = V c main_v23 (ix2 (row t r) f) := fun f => by
    show V c main_v23 (((cfg1.win 0).blk t).view.emb (ix2 r f)) = _
    refine congrArg (V c main_v23) ?_
    funext a; apply Fin.ext
    match a with
    | ⟨0, _⟩ => show win1_0.index t (0 : Fin 2) * 2000 + 1 * r.val = t.val * 2000 + r.val; omega
    | ⟨1, _⟩ => show win1_0.index t (1 : Fin 2) * 96 + 1 * f.val = f.val; omega
  have b1 : ∀ f : Fin 96, iblk1 V c 1 t (ix2 r f) = V c main_v12 (ix2 (row t r) f) := fun f => by
    show V c main_v12 (((cfg1.win 1).blk t).view.emb (ix2 r f)) = _
    refine congrArg (V c main_v12) ?_
    funext a; apply Fin.ext
    match a with
    | ⟨0, _⟩ => show win1_1.index t (0 : Fin 2) * 2000 + 1 * r.val = t.val * 2000 + r.val; omega
    | ⟨1, _⟩ => show win1_1.index t (1 : Fin 2) * 96 + 1 * f.val = f.val; omega
  have b2 : iblk1 V c 2 t (ix2 r (0 : Fin 1)) = V c main_v11 (ix2 (row t r) (0 : Fin 1)) := by
    show V c main_v11 (((cfg1.win 2).blk t).view.emb (ix2 r (0 : Fin 1))) = _
    refine congrArg (V c main_v11) ?_
    funext a; apply Fin.ext
    match a with
    | ⟨0, _⟩ => show win1_2.index t (0 : Fin 2) * 2000 + 1 * r.val = t.val * 2000 + r.val; omega
    | ⟨1, _⟩ => show win1_2.index t (1 : Fin 2) * 1 + 1 * 0 = 0; omega
  have b3 : ∀ f : Fin 96, iblk1 V c 3 t (ix2 (0 : Fin 1) f) = V c main_v27 (ix2 (0 : Fin 1) f) := fun f => by
    show V c main_v27 (((cfg1.win 3).blk t).view.emb (ix2 (0 : Fin 1) f)) = _
    refine congrArg (V c main_v27) ?_
    funext a; apply Fin.ext
    match a with
    | ⟨0, _⟩ => show win1_3.index t (0 : Fin 2) * 1 + 1 * 0 = 0; omega
    | ⟨1, _⟩ => show win1_3.index t (1 : Fin 2) * 96 + 1 * f.val = f.val; omega
  have b4 : ∀ f : Fin 96, iblk1 V c 4 t (ix2 f q) = V c main_v24 (ix2 f q) := fun f => by
    show V c main_v24 (((cfg1.win 4).blk t).view.emb (ix2 f q)) = _
    refine congrArg (V c main_v24) ?_
    funext a; apply Fin.ext
    match a with
    | ⟨0, _⟩ => show win1_4.index t (0 : Fin 2) * 96 + 1 * f.val = f.val; omega
    | ⟨1, _⟩ => show win1_4.index t (1 : Fin 2) * 64 + 1 * q.val = q.val; omega
  have b5 : ((cfg1.win 5).blk t).view.emb (ix2 r q) = ix2 (row t r) q := by
    funext a; apply Fin.ext
    match a with
    | ⟨0, _⟩ => show win1_5.index t (0 : Fin 2) * 2000 + 1 * r.val = t.val * 2000 + r.val; omega
    | ⟨1, _⟩ => show win1_5.index t (1 : Fin 2) * 64 + 1 * q.val = q.val; omega
  show _ = secondArr (V c main_v23) (V c main_v12) (V c main_v11) (V c main_v27) (V c main_v24) (((cfg1.win 5).blk t).view.emb (ix2 r q))
  rw [b5, secondArr_apply, b2]
  unfold second hidden
  simp only [b0, b1, b3, b4]

/-- An index of the array is in point t's block iff its row is in the block's range. -/
theorem mem_blk (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v28).slice (win1_5.rect t)).set ↔ _
  rw [View.set_slice_whole, Rect.mem_set_unit]
  exact Iff.rfl

/-- The 25 row blocks cover the array: row p lies in block p / 2000. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 25 := rfl
  let t : Fin cfg1.N := ⟨(i 0).val / 2000, by omega⟩
  obtain ⟨-, -, -, -, -, -, -, -, -, -, e10, e11⟩ := idx_facts t
  refine ⟨t, flush1_5 t, ?_⟩
  rw [mem_blk]
  intro a
  have ht : t.val = (i 0).val / 2000 := rfl
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- THE RESULT ARRAY of the second call is the second scaled product of the arrays it finds. -/
theorem final (c : Dev nD) :
    (dat1 V c).arrAt 5 cfg1.N = secondArr (V c main_v23) (V c main_v12) (V c main_v11) (V c main_v27) (V c main_v24) :=
  (dat1 V c).arrAt_eq_of_cover 5 _ (fun t _ => flushed_eq V c t) cover

end Cert.KernelIdeal.Region1

end
-- ==== Proof.Region2.lean ====
/-
  The third call: the final combine, as one function of the arrays it finds.

  The call runs over 25 grid points; point t loads rows 2000·t … 2000·t + 1999 of the second aggregate a, of the scaled
  second features h and of the weight column dis, and the whole bias row b, and writes the same rows of the result:
  entry (r, q) is dis(r) · (a(r, q) + h(r, q)) + b(q). The 25 blocks tile the 50000 rows, so the whole result array is
  that function of the arrays the call finds, row by row.
-/
import proofs.«109903_j13417477833490_2_alg».proof.Proof.Gen.KernelIdeal.Frame
import proofs.«109903_j13417477833490_2_alg».proof.Proof.LibColumn
import proofs.«109903_j13417477833490_2_alg».proof.Proof.LibRow
import Idealize.ShloMosaic.Lib.ValueIdx
import Idealize.ShloMosaic.Lib.Pipeline.Value
import Idealize.ShloMosaic.PureOps.Ideal.Laws

set_option maxRecDepth 16384

noncomputable section

namespace Cert.KernelIdeal.Region2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- Entry (p, q) of the final combine. -/
def combined (a h : S50000x64.Idx → EReal) (d : S50000x1.Idx → EReal) (b : S1x64.Idx → EReal) (p : Fin 50000) (q : Fin 64) :
    EReal :=
  d (ix2 p (0 : Fin 1)) * (a (ix2 p q) + h (ix2 p q)) + b (ix2 (0 : Fin 1) q)

/-- The final combine as an array. -/
def combinedArr (a h : S50000x64.Idx → EReal) (d : S50000x1.Idx → EReal) (b : S1x64.Idx → EReal) : S50000x64.Idx → EReal :=
  fun i => combined a h d b ⟨(i 0).val, idx2_lt0 i⟩ ⟨(i 1).val, idx2_lt1 i⟩

theorem combinedArr_apply (a h d b) (p : Fin 50000) (q : Fin 64) : combinedArr a h d b (ix2 p q) = combined a h d b p q := rfl

theorem hz : (![0, 0] : Fin 2 → Nat) = fun _ => 0 := funext fun a => by fin_cases a <;> rfl

/-- One block: entry (r, q) of what the body stores, from the four blocks it loads. -/
theorem pay_apply (x0 : Vec Ideal S2000x64 .f32) (x1 : Vec Ideal S2000x64 .bf16) (x2 : Vec Ideal S2000x1 .f32) (x3 : Vec Ideal S1x64 .f32)
    (r : Fin 2000) (q : Fin 64) :
    k2_pay1 (F := Ideal) x0 x1 x2 x3 (ix2 r q)
      = x2 (ix2 r (0 : Fin 1)) * (x0 (ix2 r q) + x1 (ix2 r q)) + x3 (ix2 (0 : Fin 1) q) := by
  have hd : broadcastTo S2000x64 (shapeCast S2000x1 x2 shapeCasts_S2000x1_S2000x1) broadcasts_S2000x1_S2000x64 (ix2 r q)
      = x2 (ix2 r (0 : Fin 1)) := by
    rw [shapeCast_self]; exact Cert.Lib.broadcastTo_a1_ab_apply x2 broadcasts_S2000x1_S2000x64 r q
  have hb : broadcastTo S2000x64 (shapeCast S1x64 x3 shapeCasts_S1x64_S1x64) broadcasts_S1x64_S2000x64 (ix2 r q)
      = x3 (ix2 (0 : Fin 1) q) := by
    rw [shapeCast_self]; exact Cert.Lib.broadcastTo_1b_ab_apply x3 broadcasts_S1x64_S2000x64 r q
  have ha : shapeCast S2000x64 x0 shapeCasts_S2000x64_S2000x64 (ix2 r q) = x0 (ix2 r q) := by rw [shapeCast_self]
  have hh : shapeCast S2000x64 x1 shapeCasts_S2000x64_S2000x64 (ix2 r q) = x1 (ix2 r q) := by rw [shapeCast_self]
  rw [← hd, ← hb, ← ha, ← hh]
  rfl

/-- The printed index maps over the grid: the row blocks move with the point, the bias row stays. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row r of block t is row 2000·t + r of the array. -/
def row (t : Fin cfg2.N) (r : Fin 2000) : Fin 50000 :=
  ⟨t.val * 2000 + r.val, by have := t.isLt; have h : cfg2.N = 25 := rfl; have := r.isLt; omega⟩

variable (V : (c : Dev nD) → (b : Ref sig .tc) → Buf (Elt Ideal) ((c : Thread nD τ).loc b))

/-- What point t writes back is block t of the final combine of the arrays the call finds. -/
theorem flushed_eq (c : Dev nD) (t : Fin cfg2.N) :
    (dat2 V c).flushed 4 t = ((cfg2.win 4).blk t).view.read (Elt Ideal)
      (combinedArr (V c main_v39) (V c main_v28) (V c main_v11) (V c main_v26)) := by
  show (cfg2.win 4).cut (grid2.coords t) ((dat2 V c).after 4 t) = _
  rw [after2_4]
  unfold out2_4
  rw [View.canon_unit_zero hz]
  simp only [View.ld_unit_zero (S := S2000x64) hz, View.ld_unit_zero (S := S2000x1) hz, View.ld_unit_zero (S := S1x64) hz]
  obtain ⟨e0, e1, e2, e3, e4, e5, e6, e7, e8, e9⟩ := idx_facts t
  funext j
  obtain ⟨r, q, rfl⟩ : ∃ (r : Fin 2000) (q : Fin 64), j = ix2 r q := ⟨j 0, j 1, eq_ix2 j⟩
  refine (pay_apply _ _ _ _ r q).trans ?_
  have b0 : iblk2 V c 0 t (ix2 r q) = V c main_v39 (ix2 (row t r) q) := by
    show V c main_v39 (((cfg2.win 0).blk t).view.emb (ix2 r q)) = _
    refine congrArg (V c main_v39) ?_
    funext a; apply Fin.ext
    match a with
    | ⟨0, _⟩ => show win2_0.index t (0 : Fin 2) * 2000 + 1 * r.val = t.val * 2000 + r.val; omega
    | ⟨1, _⟩ => show win2_0.index t (1 : Fin 2) * 64 + 1 * q.val = q.val; omega
  have b1 : iblk2 V c 1 t (ix2 r q) = V c main_v28 (ix2 (row t r) q) := by
    show V c main_v28 (((cfg2.win 1).blk t).view.emb (ix2 r q)) = _
    refine congrArg (V c main_v28) ?_
    funext a; apply Fin.ext
    match a with
    | ⟨0, _⟩ => show win2_1.index t (0 : Fin 2) * 2000 + 1 * r.val = t.val * 2000 + r.val; omega
    | ⟨1, _⟩ => show win2_1.index t (1 : Fin 2) * 64 + 1 * q.val = q.val; omega
  have b2 : iblk2 V c 2 t (ix2 r (0 : Fin 1)) = V c main_v11 (ix2 (row t r) (0 : Fin 1)) := by
    show V c main_v11 (((cfg2.win 2).blk t).view.emb (ix2 r (0 : Fin 1))) = _
    refine congrArg (V c main_v11) ?_
    funext a; apply Fin.ext
    match a with
    | ⟨0, _⟩ => show win2_2.index t (0 : Fin 2) * 2000 + 1 * r.val = t.val * 2000 + r.val; omega
    | ⟨1, _⟩ => show win2_2.index t (1 : Fin 2) * 1 + 1 * 0 = 0; omega
  have b3 : iblk2 V c 3 t (ix2 (0 : Fin 1) q) = V c main_v26 (ix2 (0 : Fin 1) q) := by
    show V c main_v26 (((cfg2.win 3).blk t).view.emb (ix2 (0 : Fin 1) q)) = _
    refine congrArg (V c main_v26) ?_
    funext a; apply Fin.ext
    match a with
    | ⟨0, _⟩ => show win2_3.index t (0 : Fin 2) * 1 + 1 * 0 = 0; omega
    | ⟨1, _⟩ => show win2_3.index t (1 : Fin 2) * 64 + 1 * q.val = q.val; omega
  have b4 : ((cfg2.win 4).blk t).view.emb (ix2 r q) = ix2 (row t r) q := by
    funext a; apply Fin.ext
    match a with
    | ⟨0, _⟩ => show win2_4.index t (0 : Fin 2) * 2000 + 1 * r.val = t.val * 2000 + r.val; omega
    | ⟨1, _⟩ => show win2_4.index t (1 : Fin 2) * 64 + 1 * q.val = q.val; omega
  show _ = combinedArr (V c main_v39) (V c main_v28) (V c main_v11) (V c main_v26) (((cfg2.win 4).blk t).view.emb (ix2 r q))
  rw [b4, combinedArr_apply, b0, b1, b2, b3]
  rfl

/-- An index of the array is in point t's block iff its row is in the block's range. -/
theorem mem_blk (t : Fin cfg2.N) (i : S50000x64.Idx) :
    i ∈ ((cfg2.win 4).blk t).view.set ↔ ∀ a : Fin 2, win2_4.index t a * S2000x64.size a ≤ (i a).val ∧ (i a).val < win2_4.index t a * S2000x64.size a + S2000x64.size a := by
  show i ∈ ((View.whole main_v40).slice (win2_4.rect t)).set ↔ _
  rw [View.set_slice_whole, Rect.mem_set_unit]
  exact Iff.rfl

/-- The 25 row blocks cover the array: row p lies in block p / 2000. -/
theorem cover (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  have hN : cfg2.N = 25 := rfl
  let t : Fin cfg2.N := ⟨(i 0).val / 2000, by omega⟩
  obtain ⟨-, -, -, -, -, -, -, -, e8, e9⟩ := idx_facts t
  refine ⟨t, flush2_4 t, ?_⟩
  rw [mem_blk]
  intro a
  have ht : t.val = (i 0).val / 2000 := rfl
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 64 ≤ (i 1).val ∧ (i 1).val < win2_4.index t (1 : Fin 2) * 64 + 64; omega

/-- THE RESULT ARRAY of the third call is the final combine of the arrays it finds. -/
theorem final (c : Dev nD) :
    (dat2 V c).arrAt 4 cfg2.N = combinedArr (V c main_v39) (V c main_v28) (V c main_v11) (V c main_v26) :=
  (dat2 V c).arrAt_eq_of_cover 4 _ (fun t _ => flushed_eq V c t) cover

end Cert.KernelIdeal.Region2

end
-- ==== Proof.KernelHost.lean ====
/-
  What the host operations of the three-call program compute, buffer by buffer, at the seven segment boundaries.

  Before the first call: the source and target words of the edges (two rows of the edge array), the degrees (a scatter
  of ones along the target words into zeros, plus one) and the weight column (their reciprocal square roots). Between
  the first and the second call: the first aggregate (the scaled features gathered along the source words, one row per
  edge, and scattered along the target words into zeros), the bias row, and the two head weight matrices side by side.
  Between the second and the third call: the second aggregate, built the same way from the second call's result. After
  the third call: the two column slices. Each boundary's contents are the previous boundary's with these operations
  applied; a call changes only its own result array.
-/
import proofs.«109903_j13417477833490_2_alg».proof.Proof.Gen.KernelIdeal.Frame
import proofs.«109903_j13417477833490_2_alg».proof.Proof.Region0
import proofs.«109903_j13417477833490_2_alg».proof.Proof.Region1
import proofs.«109903_j13417477833490_2_alg».proof.Proof.Region2
import Idealize.ShloMosaic.Lib.StableHlo.Run
import Idealize.ShloMosaic.Lib.ValueIdx

set_option maxRecDepth 16384

noncomputable section

namespace Cert.KernelIdeal.HostRead

open Idealize.ShloMosaic Idealize.ShloMosaic.TcCoe Idealize.ShloMosaic.ValueIdx Idealize.ShloMosaic.StableHlo
open Idealize.SL Idealize.SL.Sem
open Cert.KernelIdeal Cert.KernelIdeal.Gen

/-- The source words and the target words of the edges, as vectors. -/
def srcVec (x7 : (⟨S2x800000, .i32⟩ : BufTy).Contents (Elt Ideal)) : (⟨S800000, .i32⟩ : BufTy).Contents (Elt Ideal) :=
  shapeCast S800000 (extractStridedSlice S1x800000 ![0, 0] x7 slices_S2x800000_S1x800000_0_0) shapeCasts_S1x800000_S800000
def dstVec (x7 : (⟨S2x800000, .i32⟩ : BufTy).Contents (Elt Ideal)) : (⟨S800000, .i32⟩ : BufTy).Contents (Elt Ideal) :=
  shapeCast S800000 (extractStridedSlice S1x800000 ![1, 0] x7 slices_S2x800000_S1x800000_1_0) shapeCasts_S1x800000_S800000

/-- A vector of index words as the one-column array a gather or a scatter is given. -/
def colIdx (v : (⟨S800000, .i32⟩ : BufTy).Contents (Elt Ideal)) : (⟨S800000x1, .i32⟩ : BufTy).Contents (Elt Ideal) :=
  broadcastInDim S800000x1 ![0] bcast_S800000_S800000x1_0 v

/-- Arrays of zeros and of ones. -/
def zerosN : (⟨S50000, .f32⟩ : BufTy).Contents (Elt Ideal) :=
  broadcastInDim S50000 ![] bcast_S_S50000 (constant (F := Ideal) S_ .f32 0x00000000#32)
def onesN : (⟨S50000, .f32⟩ : BufTy).Contents (Elt Ideal) :=
  broadcastInDim S50000 ![] bcast_S_S50000 (constant (F := Ideal) S_ .f32 0x3F800000#32)
def onesE : (⟨S800000, .f32⟩ : BufTy).Contents (Elt Ideal) :=
  broadcastInDim S800000 ![] bcast_S_S800000 (constant (F := Ideal) S_ .f32 0x3F800000#32)
def zeros96 : (⟨S50000x96, .f32⟩ : BufTy).Contents (Elt Ideal) :=
  broadcastInDim S50000x96 ![] bcast_S_S50000x96 (constant (F := Ideal) S_ .f32 0x00000000#32)
def zeros64 : (⟨S50000x64, .f32⟩ : BufTy).Contents (Elt Ideal) :=
  broadcastInDim S50000x64 ![] bcast_S_S50000x64 (constant (F := Ideal) S_ .f32 0x00000000#32)

/-- The degrees: a scatter of ones along the target words into zeros, plus one. -/
def degVec (x7 : (⟨S2x800000, .i32⟩ : BufTy).Contents (Elt Ideal)) : (⟨S50000, .f32⟩ : BufTy).Contents (Elt Ideal) :=
  addf (F := Ideal) (φ := .f32) (Host.scatterAdd (F := Ideal) (φ := .f32) scatter_S50000_S800000x1_S800000_n_0_0_1 zerosN (colIdx (dstVec x7)) onesE) onesN

/-- The weights as a column. -/
def disCol (x7 : (⟨S2x800000, .i32⟩ : BufTy).Contents (Elt Ideal)) : (⟨S50000x1, .f32⟩ : BufTy).Contents (Elt Ideal) :=
  shapeCast S50000x1 (Host.rsqrt (F := Ideal) (φ := .f32) (degVec x7)) shapeCasts_S50000_S50000x1

/-- The index words a gather is given: 50000 added to the negative ones. -/
def nrmVec (s : (⟨S800000, .i32⟩ : BufTy).Contents (Elt Ideal)) : (⟨S800000, .i32⟩ : BufTy).Contents (Elt Ideal) :=
  select (cmpi .slt s (broadcastInDim S800000 ![] bcast_S_S800000 (constantI S_ 32 0#32)))
    (addi s (broadcastInDim S800000 ![] bcast_S_S800000 (constantI S_ 32 50000#32))) s

/-- The first aggregate: rows of h gathered along the source words, scattered along the target words into zeros. -/
def agg96 (h : (⟨S50000x96, .bf16⟩ : BufTy).Contents (Elt Ideal)) (s d : (⟨S800000, .i32⟩ : BufTy).Contents (Elt Ideal)) :
    (⟨S50000x96, .f32⟩ : BufTy).Contents (Elt Ideal) :=
  Host.scatterAdd (F := Ideal) (φ := .f32) scatter_S50000x96_S800000x1_S800000x96_1_0_0_1 zeros96 (colIdx d)
    (extf (F := Ideal) (φ := .bf16) .f32 (Host.gather gather_S50000x96_S800000x1_S800000x96_1_0_n_n_0_1_196 h (colIdx (nrmVec s))) bitsLt_bf16_f32)

/-- The second aggregate, the same over rows of length 64. -/
def agg64 (h : (⟨S50000x64, .bf16⟩ : BufTy).Contents (Elt Ideal)) (s d : (⟨S800000, .i32⟩ : BufTy).Contents (Elt Ideal)) :
    (⟨S50000x64, .f32⟩ : BufTy).Contents (Elt Ideal) :=
  Host.scatterAdd (F := Ideal) (φ := .f32) scatter_S50000x64_S800000x1_S800000x64_1_0_0_1 zeros64 (colIdx d)
    (extf (F := Ideal) (φ := .bf16) .f32 (Host.gather gather_S50000x64_S800000x1_S800000x64_1_0_n_n_0_1_164 h (colIdx (nrmVec s))) bitsLt_bf16_f32)

/-- The two head weight matrices side by side, and the two head biases end to end as a row. -/
def wcat (w3 w5 : (⟨S96x32, .f32⟩ : BufTy).Contents (Elt Ideal)) : (⟨S96x64, .f32⟩ : BufTy).Contents (Elt Ideal) :=
  concatenate S96x64 1 [⟨S96x32, w3⟩, ⟨S96x32, w5⟩] concatenates_S96x32_S96x32_S96x64_d1
def bcatRow (b4 b6 : (⟨S32, .f32⟩ : BufTy).Contents (Elt Ideal)) : (⟨S1x64, .f32⟩ : BufTy).Contents (Elt Ideal) :=
  shapeCast S1x64 (concatenate S64 0 [⟨S32, b4⟩, ⟨S32, b6⟩] concatenates_S32_S32_S64_d0) shapeCasts_S64_S1x64
def b1Row (b2 : (⟨S96, .f32⟩ : BufTy).Contents (Elt Ideal)) : (⟨S1x96, .f32⟩ : BufTy).Contents (Elt Ideal) :=
  shapeCast S1x96 b2 shapeCasts_S96_S1x96

variable (m : (ℓ : Loc nD τ sig) → Buf (Elt Ideal) ℓ) (ρ : Dev nD → PrngReg)

/-! ## Before the first call -/

theorem V1_v11 (c : Dev nD) : V1 m ρ c main_v11 = disCol (m ((c : Thread nD τ).loc main_arg7)) := by
  show StableHlo.after hostOps0 (W0 m ρ c) (Proc.devRef .tc main_v11) = _
  after_results
  rfl
theorem V1_v1 (c : Dev nD) : V1 m ρ c main_v1 = srcVec (m ((c : Thread nD τ).loc main_arg7)) := by
  show StableHlo.after hostOps0 (W0 m ρ c) (Proc.devRef .tc main_v1) = _
  after_results
  rfl
theorem V1_v3 (c : Dev nD) : V1 m ρ c main_v3 = dstVec (m ((c : Thread nD τ).loc main_arg7)) := by
  show StableHlo.after hostOps0 (W0 m ρ c) (Proc.devRef .tc main_v3) = _
  after_results
  rfl
theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg4 (c : Dev nD) : V1 m ρ c main_arg4 = m ((c : Thread nD τ).loc main_arg4) := by
  show StableHlo.after hostOps0 (W0 m ρ c) (Proc.devRef .tc main_arg4) = _
  after_results
theorem V1_arg5 (c : Dev nD) : V1 m ρ c main_arg5 = m ((c : Thread nD τ).loc main_arg5) := by
  show StableHlo.after hostOps0 (W0 m ρ c) (Proc.devRef .tc main_arg5) = _
  after_results
theorem V1_arg6 (c : Dev nD) : V1 m ρ c main_arg6 = m ((c : Thread nD τ).loc main_arg6) := by
  show StableHlo.after hostOps0 (W0 m ρ c) (Proc.devRef .tc main_arg6) = _
  after_results

/-! ## After the first call -/

/-- The first call's result array. -/
def h1p (c : Dev nD) : S50000x96.Idx → EReal :=
  Region0.scaledArr (m ((c : Thread nD τ).loc main_arg0)) (m ((c : Thread nD τ).loc main_arg1))
    (disCol (m ((c : Thread nD τ).loc main_arg7)))

theorem W2_v12 (c : Dev nD) : W2 m ρ c (Proc.devRef .tc main_v12) = h1p m c := by
  refine (W2_arr m ρ c 3).trans ?_
  rw [Region0.final (V1 m ρ) c, V1_arg0, V1_arg1, V1_v11]
  rfl

theorem V2_v1 (c : Dev nD) : V2 m ρ c main_v1 = srcVec (m ((c : Thread nD τ).loc main_arg7)) :=
  (W2_of_ne m ρ c main_v1 (by decide)).trans (V1_v1 m ρ c)
theorem V2_v3 (c : Dev nD) : V2 m ρ c main_v3 = dstVec (m ((c : Thread nD τ).loc main_arg7)) :=
  (W2_of_ne m ρ c main_v3 (by decide)).trans (V1_v3 m ρ c)
theorem V2_v11 (c : Dev nD) : V2 m ρ c main_v11 = disCol (m ((c : Thread nD τ).loc main_arg7)) :=
  ((W2_arr m ρ c 2).trans (((dat0 (V1 m ρ) c).arrAt_in 2 rfl _).trans (A_eq0 (V1 m ρ) c 2))).trans (V1_v11 m ρ c)
theorem V2_arg2 (c : Dev nD) : V2 m ρ c main_arg2 = m ((c : Thread nD τ).loc main_arg2) :=
  (W2_of_ne m ρ c main_arg2 (by decide)).trans (V1_arg2 m ρ c)
theorem V2_arg3 (c : Dev nD) : V2 m ρ c main_arg3 = m ((c : Thread nD τ).loc main_arg3) :=
  (W2_of_ne m ρ c main_arg3 (by decide)).trans (V1_arg3 m ρ c)
theorem V2_arg4 (c : Dev nD) : V2 m ρ c main_arg4 = m ((c : Thread nD τ).loc main_arg4) :=
  (W2_of_ne m ρ c main_arg4 (by decide)).trans (V1_arg4 m ρ c)
theorem V2_arg5 (c : Dev nD) : V2 m ρ c main_arg5 = m ((c : Thread nD τ).loc main_arg5) :=
  (W2_of_ne m ρ c main_arg5 (by decide)).trans (V1_arg5 m ρ c)
theorem V2_arg6 (c : Dev nD) : V2 m ρ c main_arg6 = m ((c : Thread nD τ).loc main_arg6) :=
  (W2_of_ne m ρ c main_arg6 (by decide)).trans (V1_arg6 m ρ c)

/-! ## Before the second call -/

theorem V3_v23 (c : Dev nD) : V3 m ρ c main_v23
    = agg96 (h1p m c) (srcVec (m ((c : Thread nD τ).loc main_arg7))) (dstVec (m ((c : Thread nD τ).loc main_arg7))) := by
  show StableHlo.after hostOps1 (W2 m ρ c) (Proc.devRef .tc main_v23) = _
  after_results
  rw [W2_v12 m ρ c, show W2 m ρ c (Proc.devRef .tc main_v1) = _ from V2_v1 m ρ c,
    show W2 m ρ c (Proc.devRef .tc main_v3) = _ from V2_v3 m ρ c]
  rfl
theorem V3_v12 (c : Dev nD) : V3 m ρ c main_v12 = h1p m c := by
  show StableHlo.after hostOps1 (W2 m ρ c) (Proc.devRef .tc main_v12) = _
  after_results
  exact W2_v12 m ρ c
theorem V3_v11 (c : Dev nD) : V3 m ρ c main_v11 = disCol (m ((c : Thread nD τ).loc main_arg7)) := by
  show StableHlo.after hostOps1 (W2 m ρ c) (Proc.devRef .tc main_v11) = _
  after_results
  exact V2_v11 m ρ c
theorem V3_v1 (c : Dev nD) : V3 m ρ c main_v1 = srcVec (m ((c : Thread nD τ).loc main_arg7)) := by
  show StableHlo.after hostOps1 (W2 m ρ c) (Proc.devRef .tc main_v1) = _
  after_results
  exact V2_v1 m ρ c
theorem V3_v3 (c : Dev nD) : V3 m ρ c main_v3 = dstVec (m ((c : Thread nD τ).loc main_arg7)) := by
  show StableHlo.after hostOps1 (W2 m ρ c) (Proc.devRef .tc main_v3) = _
  after_results
  exact V2_v3 m ρ c
theorem V3_v27 (c : Dev nD) : V3 m ρ c main_v27 = b1Row (m ((c : Thread nD τ).loc main_arg2)) := by
  show StableHlo.after hostOps1 (W2 m ρ c) (Proc.devRef .tc main_v27) = _
  after_results
  rw [show W2 m ρ c (Proc.devRef .tc main_arg2) = _ from V2_arg2 m ρ c]
  rfl
theorem V3_v24 (c : Dev nD) : V3 m ρ c main_v24
    = wcat (m ((c : Thread nD τ).loc main_arg3)) (m ((c : Thread nD τ).loc main_arg5)) := by
  show StableHlo.after hostOps1 (W2 m ρ c) (Proc.devRef .tc main_v24) = _
  after_results
  rw [show W2 m ρ c (Proc.devRef .tc main_arg3) = _ from V2_arg3 m ρ c,
    show W2 m ρ c (Proc.devRef .tc main_arg5) = _ from V2_arg5 m ρ c]
  rfl
theorem V3_v26 (c : Dev nD) : V3 m ρ c main_v26
    = bcatRow (m ((c : Thread nD τ).loc main_arg4)) (m ((c : Thread nD τ).loc main_arg6)) := by
  show StableHlo.after hostOps1 (W2 m ρ c) (Proc.devRef .tc main_v26) = _
  after_results
  rw [show W2 m ρ c (Proc.devRef .tc main_arg4) = _ from V2_arg4 m ρ c,
    show W2 m ρ c (Proc.devRef .tc main_arg6) = _ from V2_arg6 m ρ c]
  rfl

/-! ## After the second call -/

/-- The second call's result array. -/
def h2p (c : Dev nD) : S50000x64.Idx → EReal :=
  Region1.secondArr
    (agg96 (h1p m c) (srcVec (m ((c : Thread nD τ).loc main_arg7))) (dstVec (m ((c : Thread nD τ).loc main_arg7))))
    (h1p m c) (disCol (m ((c : Thread nD τ).loc main_arg7))) (b1Row (m ((c : Thread nD τ).loc main_arg2)))
    (wcat (m ((c : Thread nD τ).loc main_arg3)) (m ((c : Thread nD τ).loc main_arg5)))

theorem W4_v28 (c : Dev nD) : W4 m ρ c (Proc.devRef .tc main_v28) = h2p m c := by
  refine (W4_arr m ρ c 5).trans ?_
  rw [Region1.final (V3 m ρ) c, V3_v23, V3_v12, V3_v11, V3_v27, V3_v24]
  rfl

theorem V4_v1 (c : Dev nD) : V4 m ρ c main_v1 = srcVec (m ((c : Thread nD τ).loc main_arg7)) :=
  (W4_of_ne m ρ c main_v1 (by decide)).trans (V3_v1 m ρ c)
theorem V4_v3 (c : Dev nD) : V4 m ρ c main_v3 = dstVec (m ((c : Thread nD τ).loc main_arg7)) :=
  (W4_of_ne m ρ c main_v3 (by decide)).trans (V3_v3 m ρ c)
theorem V4_v11 (c : Dev nD) : V4 m ρ c main_v11 = disCol (m ((c : Thread nD τ).loc main_arg7)) :=
  ((W4_arr m ρ c 2).trans (((dat1 (V3 m ρ) c).arrAt_in 2 rfl _).trans (A_eq1 (V3 m ρ) c 2))).trans (V3_v11 m ρ c)
theorem V4_v26 (c : Dev nD) : V4 m ρ c main_v26
    = bcatRow (m ((c : Thread nD τ).loc main_arg4)) (m ((c : Thread nD τ).loc main_arg6)) :=
  (W4_of_ne m ρ c main_v26 (by decide)).trans (V3_v26 m ρ c)

/-! ## Before the third call -/

theorem V5_v39 (c : Dev nD) : V5 m ρ c main_v39
    = agg64 (h2p m c) (srcVec (m ((c : Thread nD τ).loc main_arg7))) (dstVec (m ((c : Thread nD τ).loc main_arg7))) := by
  show StableHlo.after hostOps2 (W4 m ρ c) (Proc.devRef .tc main_v39) = _
  after_results
  rw [W4_v28 m ρ c, show W4 m ρ c (Proc.devRef .tc main_v1) = _ from V4_v1 m ρ c,
    show W4 m ρ c (Proc.devRef .tc main_v3) = _ from V4_v3 m ρ c]
  rfl
theorem V5_v28 (c : Dev nD) : V5 m ρ c main_v28 = h2p m c := by
  show StableHlo.after hostOps2 (W4 m ρ c) (Proc.devRef .tc main_v28) = _
  after_results
  exact W4_v28 m ρ c
theorem V5_v11 (c : Dev nD) : V5 m ρ c main_v11 = disCol (m ((c : Thread nD τ).loc main_arg7)) := by
  show StableHlo.after hostOps2 (W4 m ρ c) (Proc.devRef .tc main_v11) = _
  after_results
  exact V4_v11 m ρ c
theorem V5_v26 (c : Dev nD) : V5 m ρ c main_v26
    = bcatRow (m ((c : Thread nD τ).loc main_arg4)) (m ((c : Thread nD τ).loc main_arg6)) := by
  show StableHlo.after hostOps2 (W4 m ρ c) (Proc.devRef .tc main_v26) = _
  after_results
  exact V4_v26 m ρ c

/-! ## After the third call, and the two slices -/

/-- The third call's result array. -/
def outc (c : Dev nD) : S50000x64.Idx → EReal :=
  Region2.combinedArr
    (agg64 (h2p m c) (srcVec (m ((c : Thread nD τ).loc main_arg7))) (dstVec (m ((c : Thread nD τ).loc main_arg7))))
    (h2p m c) (disCol (m ((c : Thread nD τ).loc main_arg7)))
    (bcatRow (m ((c : Thread nD τ).loc main_arg4)) (m ((c : Thread nD τ).loc main_arg6)))

theorem W6_v40 (c : Dev nD) : W6 m ρ c (Proc.devRef .tc main_v40) = outc m c := by
  refine (W6_arr m ρ c 4).trans ?_
  rw [Region2.final (V5 m ρ) c, V5_v39, V5_v28, V5_v11, V5_v26]
  rfl

theorem W7_v41 (c : Dev nD) : W7 m ρ c (Proc.devRef .tc main_v41)
    = extractStridedSlice S50000x32 ![0, 0] (outc m c) slices_S50000x64_S50000x32_0_0 := by
  show StableHlo.after hostOps3 (W6 m ρ c) (Proc.devRef .tc main_v41) = _
  after_results
  rw [W6_v40 m ρ c]
theorem W7_v42 (c : Dev nD) : W7 m ρ c (Proc.devRef .tc main_v42)
    = extractStridedSlice S50000x32 ![0, 32] (outc m c) slices_S50000x64_S50000x32_0_32 := by
  show StableHlo.after hostOps3 (W6 m ρ c) (Proc.devRef .tc main_v42) = _
  after_results
  rw [W6_v40 m ρ c]

end Cert.KernelIdeal.HostRead

end
-- ==== Proof.LibSegment.lean ====
/-
  Two host shape operations read at an index, general in the sizes: the gather of whole rows of a table by one start
  index per row, and the accumulating scatter of rows into a table by one scatter index per row (a segment sum).

  For a table with `N` rows of length `F`, `E` index words of width `w` held as an `[E, 1]` array, and `E` rows of updates:
  * the gather's element `(e, f)` is the table's element `(clamp (idx e), f)`, where the index word is read as a signed
    integer and clamped into `[0, N − 1]` (`gather_rows_apply`; the rank-1 table: `gather_vec_apply`);
  * the scatter's element `(p, q)` is the operand's element `(p, q)` plus the sum of the updates' elements `(e, q)` over
    the rows `e` whose index word, read as a signed integer, is exactly `p` — an index outside `[0, N)` contributes
    nothing (`scatterAdd_rows_apply`; the rank-1 table: `scatterAdd_vec_apply`).
-/
import Idealize.ShloMosaic.Lib.ValueIdx
import Idealize.ShloMosaic.PureOps.Ideal
import Idealize.ShloMosaic.PureOps.Ideal.Laws

noncomputable section

open scoped BigOperators

namespace Cert.LibSegment

open Idealize.ShloMosaic Idealize.ShloMosaic.ValueIdx

section
variable {N E F w : Nat}

/-! ## The gather of rows -/

/-- The dimension numbers of a gather of whole rows: operand `[N, F]`, start indices `[E, 1]` (the index vector on
    axis 1, of length one, naming operand axis 0), result `[E, F]`; operand axis 0 is collapsed (slice size 1) and
    result axis 1 is the offset axis over the whole row (slice size `F`). -/
abbrev rowGatherDims (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- THE ROW GATHER READ AT `(e, f)`: the operand at row `idx[e, 0]` — read signed and clamped into `[0, N − 1]` —
    and column `f`. -/
theorem gather_rows_apply {α : Type} (hN : 0 < N)
    (wf : GatherDims.WF ⟨2, ![N, F]⟩ ⟨2, ![E, 1]⟩ ⟨2, ![E, F]⟩ [1] [0] [] [0] [] 1 ![1, F])
    (x : (⟨2, ![N, F]⟩ : Shape).Idx → α) (idx : IVec ⟨2, ![E, 1]⟩ w) (e : Fin E) (f : Fin F) :
    Host.gather (rowGatherDims N E F wf) x idx (ix2 e f)
      = x (ix2 ⟨min (idx (ix2 e 0)).toInt.toNat (N - 1), by omega⟩ f) := by
  unfold Host.gather
  congr 1
  funext a
  refine Fin.ext ?_
  show (rowGatherDims N E F wf).start (ix2 e f) idx a + (rowGatherDims N E F wf).batchCoord (ix2 e f) a
    + (rowGatherDims N E F wf).offCoord (ix2 e f) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    have hm : (⟨0, h0⟩ : Fin 2) ∈ (rowGatherDims N E F wf).startIndexMap := List.mem_singleton.mpr rfl
    rw [dif_pos hm]
    have hsi : (rowGatherDims N E F wf).siIdx (ix2 e f) ⟨List.idxOf (⟨0, h0⟩ : Fin 2) (rowGatherDims N E F wf).startIndexMap,
        List.idxOf_lt_length_iff.2 hm⟩ = ix2 e 0 := by
      funext b; refine Fin.ext ?_
      match b with
      | ⟨0, _⟩ => rfl
      | ⟨1, _⟩ => rfl
    rw [hsi]
    rfl
  | ⟨1, h1⟩ =>
    have hn : ¬ (⟨1, h1⟩ : Fin 2) ∈ (rowGatherDims N E F wf).startIndexMap :=
      fun h => absurd (congrArg Fin.val (List.mem_singleton.mp h)) Nat.one_ne_zero
    have hk : (⟨1, h1⟩ : Fin 2) ∈ (rowGatherDims N E F wf).sKept :=
      (GatherDims.mem_sKept _ _).mpr
        ⟨fun h => absurd (congrArg Fin.val (List.mem_singleton.mp h)) Nat.one_ne_zero, List.not_mem_nil⟩
    unfold GatherDims.start
    rw [dif_neg hn]
    simp only [Nat.zero_add, Nat.add_zero]
    unfold GatherDims.offCoord
    rw [dif_pos hk]
    rfl

/-- The dimension numbers of a gather of single elements of a vector: operand `[N]`, start indices `[E, 1]` (the index
    vector on axis 1, of length one, naming operand axis 0), result `[E]`; the operand's one axis is collapsed. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `idx[e, 0]`, read signed and clamped into `[0, N − 1]`. -/
theorem gather_vec_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  have hm : (0 : Fin 1) ∈ (vecGatherDims N E wf).startIndexMap := List.mem_singleton.mpr rfl
  rw [dif_pos hm]
  have hsi : (vecGatherDims N E wf).siIdx (ix1 e) ⟨List.idxOf (0 : Fin 1) (vecGatherDims N E wf).startIndexMap,
      List.idxOf_lt_length_iff.2 hm⟩ = ix2 e 0 := by
    funext b; refine Fin.ext ?_
    match b with
    | ⟨0, _⟩ => rfl
    | ⟨1, _⟩ => rfl
  rw [hsi]
  rfl

/-! ## The accumulating scatter of rows -/

/-- An update element lands at operand index `i` exactly when, on every operand axis, the (signed, unclamped) start
    plus the window coordinate is `i`'s coordinate: the result index is defined only inside the operand, where it is
    that sum. -/
theorem resultIdx?_eq_some_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    rw [Option.some.injEq]
    constructor
    · rintro rfl a
      have := h a
      show _ = ((d.start j idx a + (d.window j a : Int)).toNat : Int)
      omega
    · intro hi
      funext a
      refine Fin.ext ?_
      have := hi a
      show (d.start j idx a + (d.window j a : Int)).toNat = _
      omega
  · next h =>
    constructor
    · intro hc
      cases hc
    · intro hi
      exfalso
      apply h
      intro a
      have := hi a
      have := (i a).isLt
      omega

/-- The dimension numbers of a scatter of whole rows: operand `[N, F]`, scatter indices `[E, 1]` (the index vector on
    axis 1, of length one, naming operand axis 0), updates `[E, F]`; operand axis 0 is an inserted window axis and
    the updates' axis 1 is the window axis over the whole row. -/
abbrev rowScatterDims (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

section Rows
variable (wf : ScatterDims.WF ⟨2, ![N, F]⟩ ⟨2, ![E, 1]⟩ ⟨2, ![E, F]⟩ [1] [0] [0] 1)
  (j : (⟨2, ![E, F]⟩ : Shape).Idx) (idx : IVec ⟨2, ![E, 1]⟩ w)

/-- On the row axis the window starts at the index word of the update's row, read signed. -/
theorem rowScatter_start_zero (h0 : 0 < 2) :
    (rowScatterDims N E F wf).start j idx ⟨0, h0⟩ = (idx (ix2 (j 0) 0)).toInt := by
  unfold ScatterDims.start
  have hm : (⟨0, h0⟩ : Fin 2) ∈ (rowScatterDims N E F wf).scatterDimsToOperandDims := List.mem_singleton.mpr rfl
  rw [dif_pos hm]
  have hsi : (rowScatterDims N E F wf).siIdx j ⟨List.idxOf (⟨0, h0⟩ : Fin 2)
      (rowScatterDims N E F wf).scatterDimsToOperandDims, List.idxOf_lt_length_iff.2 hm⟩ = ix2 (j 0) 0 := by
    funext b; refine Fin.ext ?_
    match b with
    | ⟨0, _⟩ => rfl
    | ⟨1, _⟩ => rfl
  rw [hsi]
  rfl

/-- On the column axis the window starts at `0`: the scatter indices do not name it. -/
theorem rowScatter_start_one (h1 : 1 < 2) : (rowScatterDims N E F wf).start j idx ⟨1, h1⟩ = 0 := by
  unfold ScatterDims.start
  rw [dif_neg (fun h => absurd (congrArg Fin.val (List.mem_singleton.mp h)) Nat.one_ne_zero)]

/-- The row axis is inserted: no window coordinate on it. -/
theorem rowScatter_window_zero (h0 : 0 < 2) : (rowScatterDims N E F wf).window j ⟨0, h0⟩ = 0 := by
  unfold ScatterDims.window
  have hn : ¬ (⟨0, h0⟩ : Fin 2) ∈ (rowScatterDims N E F wf).sKept := by
    intro h
    exact (List.mem_filter.mp h).2 |> fun h' => by simpa using h'
  rw [dif_neg hn]

/-- On the column axis the window coordinate is the update's column. -/
theorem rowScatter_window_one (h1 : 1 < 2) : (rowScatterDims N E F wf).window j ⟨1, h1⟩ = (j 1).val := by
  unfold ScatterDims.window
  have hk : (⟨1, h1⟩ : Fin 2) ∈ (rowScatterDims N E F wf).sKept :=
    List.mem_filter.mpr ⟨List.mem_finRange _, by simp⟩
  rw [dif_pos hk]
  rfl

/-- The update element `j = (e, q')` lands at `(p, q)` exactly when the index word of row `e`, read signed, is `p`
    and `q' = q`. -/
theorem rowScatter_resultIdx?_iff (p : Fin N) (q : Fin F) :
    (rowScatterDims N E F wf).resultIdx? j idx = some (ix2 p q)
      ↔ (idx (ix2 (j 0) 0)).toInt = (p.val : Int) ∧ j 1 = q := by
  rw [resultIdx?_eq_some_iff]
  constructor
  · intro h
    have e0 := h ⟨0, Nat.zero_lt_two⟩
    have e1 := h ⟨1, Nat.one_lt_two⟩
    rw [rowScatter_start_zero, rowScatter_window_zero] at e0
    rw [rowScatter_start_one, rowScatter_window_one] at e1
    change _ + _ = (p.val : Int) at e0
    change _ + _ = (q.val : Int) at e1
    refine ⟨?_, Fin.ext ?_⟩
    · omega
    · omega
  · rintro ⟨e0, e1⟩ a
    match a with
    | ⟨0, h0⟩ =>
      rw [rowScatter_start_zero, rowScatter_window_zero, e0]
      rfl
    | ⟨1, h1⟩ =>
      rw [rowScatter_start_one, rowScatter_window_one, e1]
      show (0 : Int) + ((q.val : Nat) : Int) = (q.val : Int)
      omega

end Rows

/-- THE ROW SCATTER READ AT `(p, q)`: the operand's element plus the sum of the updates' elements `(e, q)` over the
    rows `e` whose index word, read signed, is `p`. The updates landing at `(p, q)` are the `(e, q)` with that word:
    the sum is re-indexed along `e ↦ (e, q)`. -/
theorem scatterAdd_rows_apply {φ : FTy}
    (wf : ScatterDims.WF ⟨2, ![N, F]⟩ ⟨2, ![E, 1]⟩ ⟨2, ![E, F]⟩ [1] [0] [0] 1)
    (x : FVec Ideal ⟨2, ![N, F]⟩ φ) (idx : IVec ⟨2, ![E, 1]⟩ w) (upd : FVec Ideal ⟨2, ![E, F]⟩ φ)
    (p : Fin N) (q : Fin F) :
    Host.scatterAdd (F := Ideal) (rowScatterDims N E F wf) x idx upd (ix2 p q)
      = x (ix2 p q) + ∑ e ∈ Finset.univ.filter (fun e : Fin E => (idx (ix2 e 0)).toInt = (p.val : Int)),
          upd (ix2 e q) := by
  show Ideal.hostScatterAdd (rowScatterDims N E F wf) x idx upd (ix2 p q) = _
  unfold Ideal.hostScatterAdd
  congr 1
  refine Finset.sum_nbij' (fun j => j 0) (fun e => ix2 e q) ?_ ?_ ?_ ?_ ?_
  · intro j hj
    have h := (rowScatter_resultIdx?_iff wf j idx p q).mp (Finset.mem_filter.mp hj).2
    exact Finset.mem_filter.mpr ⟨Finset.mem_univ _, h.1⟩
  · intro e he
    have h := (Finset.mem_filter.mp he).2
    exact Finset.mem_filter.mpr ⟨Finset.mem_univ _, (rowScatter_resultIdx?_iff wf (ix2 e q) idx p q).mpr ⟨h, rfl⟩⟩
  · intro j hj
    have h := (rowScatter_resultIdx?_iff wf j idx p q).mp (Finset.mem_filter.mp hj).2
    rw [← h.2]
    exact (eq_ix2 j).symm
  · intro e _
    rfl
  · intro j hj
    have h := (rowScatter_resultIdx?_iff wf j idx p q).mp (Finset.mem_filter.mp hj).2
    rw [← h.2]
    exact congrArg upd (eq_ix2 j)

/-! ## The accumulating scatter of single elements of a vector -/

/-- The dimension numbers of a scatter of single elements into a vector: operand `[N]`, scatter indices `[E, 1]` (the
    index vector on axis 1, of length one, naming operand axis 0), updates `[E]`; the operand's one axis is an inserted
    window axis and the updates have no window axis. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable (wf : ScatterDims.WF ⟨1, ![N]⟩ ⟨2, ![E, 1]⟩ ⟨1, ![E]⟩ [] [0] [0] 1)
  (j : (⟨1, ![E]⟩ : Shape).Idx) (idx : IVec ⟨2, ![E, 1]⟩ w)

/-- The window starts at the index word of the update's position, read signed. -/
theorem vecScatter_start_zero (h0 : 0 < 1) :
    (vecScatterDims N E wf).start j idx ⟨0, h0⟩ = (idx (ix2 (j 0) 0)).toInt := by
  unfold ScatterDims.start
  have hm : (⟨0, h0⟩ : Fin 1) ∈ (vecScatterDims N E wf).scatterDimsToOperandDims := List.mem_singleton.mpr rfl
  rw [dif_pos hm]
  have hsi : (vecScatterDims N E wf).siIdx j ⟨List.idxOf (⟨0, h0⟩ : Fin 1)
      (vecScatterDims N E wf).scatterDimsToOperandDims, List.idxOf_lt_length_iff.2 hm⟩ = ix2 (j 0) 0 := by
    funext b; refine Fin.ext ?_
    match b with
    | ⟨0, _⟩ => rfl
    | ⟨1, _⟩ => rfl
  rw [hsi]
  rfl

/-- The operand's axis is inserted: no window coordinate on it. -/
theorem vecScatter_window_zero (h0 : 0 < 1) : (vecScatterDims N E wf).window j ⟨0, h0⟩ = 0 := by
  unfold ScatterDims.window
  have hn : ¬ (⟨0, h0⟩ : Fin 1) ∈ (vecScatterDims N E wf).sKept := by
    intro h
    exact (List.mem_filter.mp h).2 |> fun h' => by simpa using h'
  rw [dif_neg hn]

/-- The update element `e` lands at `p` exactly when its index word, read signed, is `p`. -/
theorem vecScatter_resultIdx?_iff (p : Fin N) :
    (vecScatterDims N E wf).resultIdx? j idx = some (ix1 p) ↔ (idx (ix2 (j 0) 0)).toInt = (p.val : Int) := by
  rw [resultIdx?_eq_some_iff]
  constructor
  · intro h
    have e0 := h ⟨0, Nat.zero_lt_one⟩
    rw [vecScatter_start_zero, vecScatter_window_zero] at e0
    change _ + _ = (p.val : Int) at e0
    omega
  · intro e0 a
    match a with
    | ⟨0, h0⟩ =>
      rw [vecScatter_start_zero, vecScatter_window_zero, e0]
      rfl

end Vec

/-- THE VECTOR SCATTER READ AT `p`: the operand's element plus the sum of the updates' elements `e` whose index word,
    read signed, is `p`. -/
theorem scatterAdd_vec_apply {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (p : Fin N) :
    Host.scatterAdd (F := Ideal) (vecScatterDims N E wf) x idx upd (ix1 p)
      = x (ix1 p) + ∑ e ∈ Finset.univ.filter (fun e : Fin E => (idx (ix2 e 0)).toInt = (p.val : Int)),
          upd (ix1 e) := by
  show Ideal.hostScatterAdd (vecScatterDims N E wf) x idx upd (ix1 p) = _
  unfold Ideal.hostScatterAdd
  congr 1
  refine Finset.sum_nbij' (fun j => j 0) (fun e => ix1 e) ?_ ?_ ?_ ?_ ?_
  · intro j hj
    have h := (vecScatter_resultIdx?_iff wf j idx p).mp (Finset.mem_filter.mp hj).2
    exact Finset.mem_filter.mpr ⟨Finset.mem_univ _, h⟩
  · intro e he
    have h := (Finset.mem_filter.mp he).2
    exact Finset.mem_filter.mpr ⟨Finset.mem_univ _, (vecScatter_resultIdx?_iff wf (ix1 e) idx p).mpr h⟩
  · intro j _
    exact (eq_ix1 j).symm
  · intro e _
    rfl
  · intro j _
    exact congrArg upd (eq_ix1 j)

end

end Cert.LibSegment

end
-- ==== Proof.LibRealVar.lean ====
/-
  Facts about extended reals that happen to be reals: a finite sum of reals is the real sum; sums, products,
  differences, quotients by a nonzero real, maxima and the reciprocal square root of a positive real stay real;
  and the variance identity: for a real column y_1 … y_n with mean μ = (∑ y) / n,
      (∑ (y_p − μ)²) / n = (∑ y_p²) / n − μ²,
  which is distributivity and therefore needs every y_p to be a real. The deviation form is also nonnegative.
-/
import Idealize.ShloMosaic.PureOps.Ideal

noncomputable section

namespace Cert.RealMath

open Idealize.ShloMosaic

/-- x is (the coercion of) a real number. -/
def IsReal (x : EReal) : Prop := ∃ r : ℝ, x = (r : EReal)

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem isReal_coe (r : ℝ) : IsReal (r : EReal) := ⟨r, rfl⟩

theorem isReal_zero : IsReal 0 := ⟨0, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact isReal_add (h a (Finset.mem_insert_self a s)) (ih fun i hi => h i (Finset.mem_insert_of_mem hi))

theorem isReal_div {x : EReal} {c : ℝ} (hx : IsReal x) (hc : c ≠ 0) : IsReal (Ideal.div x (c : EReal)) := by
  obtain ⟨a, rfl⟩ := hx
  exact ⟨a * (1 / c), by rw [Ideal.div_coe hc, ← EReal.coe_mul]⟩

theorem isReal_max {x y : EReal} (hx : IsReal x) (hy : IsReal y) : IsReal (max x y) := by
  rcases le_total x y with h | h
  · rw [max_eq_right h]; exact hy
  · rw [max_eq_left h]; exact hx

theorem isReal_rsqrt {r : ℝ} (h : 0 < r) : IsReal (Ideal.rsqrt (r : EReal)) :=
  ⟨(Real.sqrt r)⁻¹, by rw [Ideal.rsqrt_coe, if_neg (not_lt.mpr h.le), if_neg h.ne']⟩

section Variance

variable {n : ℕ} (y : Fin n → EReal) (c : ℝ)

/-- The variance identity on a real column. -/
theorem var_identity (hy : ∀ p, IsReal (y p)) (hc : c ≠ 0) (hn : (n : ℝ) = c) :
    Ideal.div (∑ p, (y p - Ideal.div (∑ p, y p) (c : EReal)) * (y p - Ideal.div (∑ p, y p) (c : EReal))) (c : EReal)
      = Ideal.div (∑ p, y p * y p) (c : EReal)
        - Ideal.div (∑ p, y p) (c : EReal) * Ideal.div (∑ p, y p) (c : EReal) := by
  choose yr hyr using hy
  simp only [hyr]
  have hS : ∑ p, ((yr p : ℝ) : EReal) = ((∑ p, yr p : ℝ) : EReal) := coe_sum _ _
  have hSS : ∑ p, ((yr p : ℝ) : EReal) * ((yr p : ℝ) : EReal) = ((∑ p, yr p * yr p : ℝ) : EReal) := by
    rw [← coe_sum]; exact Finset.sum_congr rfl fun p _ => (EReal.coe_mul _ _).symm
  obtain ⟨μ, hμ⟩ : ∃ μ : ℝ, μ = (∑ p, yr p) * (1 / c) := ⟨_, rfl⟩
  have hM : Ideal.div (∑ p, ((yr p : ℝ) : EReal)) (c : EReal) = ((μ : ℝ) : EReal) := by
    rw [hS, Ideal.div_coe hc, ← EReal.coe_mul, hμ]
  rw [hM, hSS]
  have hD : ∑ p, (((yr p : ℝ) : EReal) - (μ : EReal)) * (((yr p : ℝ) : EReal) - (μ : EReal))
      = ((∑ p, (yr p - μ) * (yr p - μ) : ℝ) : EReal) := by
    rw [← coe_sum]; exact Finset.sum_congr rfl fun p _ => by rw [← EReal.coe_sub, ← EReal.coe_mul]
  rw [hD, Ideal.div_coe hc, Ideal.div_coe hc, ← EReal.coe_mul, ← EReal.coe_mul, ← EReal.coe_mul, ← EReal.coe_sub]
  refine congrArg _ ?_
  have h1 : ∀ p, (yr p - μ) * (yr p - μ) = yr p * yr p - 2 * μ * yr p + μ * μ := fun p => by ring
  simp only [h1, Finset.sum_add_distrib, Finset.sum_sub_distrib, ← Finset.mul_sum, Finset.sum_const,
    Finset.card_univ, Fintype.card_fin, nsmul_eq_mul]
  rw [hn, hμ]
  field_simp
  ring

/-- The mean of squared deviations of a real column, over a positive count, is a nonnegative real. -/
theorem var_nonneg (hy : ∀ p, IsReal (y p)) (hc : 0 < c) :
    ∃ v : ℝ, 0 ≤ v ∧ Ideal.div (∑ p, (y p - Ideal.div (∑ p, y p) (c : EReal)) * (y p - Ideal.div (∑ p, y p) (c : EReal)))
      (c : EReal) = (v : EReal) := by
  choose yr hyr using hy
  simp only [hyr]
  have hS : ∑ p, ((yr p : ℝ) : EReal) = ((∑ p, yr p : ℝ) : EReal) := coe_sum _ _
  obtain ⟨μ, hμ⟩ : ∃ μ : ℝ, μ = (∑ p, yr p) * (1 / c) := ⟨_, rfl⟩
  have hM : Ideal.div (∑ p, ((yr p : ℝ) : EReal)) (c : EReal) = ((μ : ℝ) : EReal) := by
    rw [hS, Ideal.div_coe hc.ne', ← EReal.coe_mul, hμ]
  rw [hM]
  have hD : ∑ p, (((yr p : ℝ) : EReal) - (μ : EReal)) * (((yr p : ℝ) : EReal) - (μ : EReal))
      = ((∑ p, (yr p - μ) * (yr p - μ) : ℝ) : EReal) := by
    rw [← coe_sum]; exact Finset.sum_congr rfl fun p _ => by rw [← EReal.coe_sub, ← EReal.coe_mul]
  rw [hD, Ideal.div_coe hc.ne', ← EReal.coe_mul]
  exact ⟨_, mul_nonneg (Finset.sum_nonneg fun p _ => mul_self_nonneg _) (by positivity), rfl⟩

end Variance

end Cert.RealMath

end
-- ==== Proof.Spec.lean ====
/-
  The mathematics of one graph-convolution layer with symmetric normalisation, and of two such layers in sequence,
  over the extended reals.

  A graph on N nodes has E edges. Edge e reads the feature row of node rowS e, and it is added into the row of the
  nodes p whose list L p contains e; whenever e is in L p, the second gathered node rowD e of that edge is p itself.
  Each node p carries a weight dis p (the reciprocal square root of its degree).

  The factorised layer scales every feature by the weight of its own node first, sums along the edges, adds the
  node's own scaled feature, and scales the total once by dis p:
      dis p · ( ∑_{e ∈ L p} g (rowS e) · dis (rowS e)  +  g p · dis p ) + b.
  The edge-normalised layer multiplies every edge's feature by the product of the two end weights and the node's
  own feature by dis p · dis p:
      ( ∑_{e ∈ L p} g (rowS e) · (dis (rowS e) · dis (rowD e))  +  g p · (dis p · dis p) ) + b.
  The two agree by distributivity of the product over the finite sum, which holds when every weight and every
  feature is a real number (it fails at the infinities), together with rowD e = p along L p.
-/
import proofs.«109903_j13417477833490_2_alg».proof.Proof.LibRealVar

noncomputable section

namespace Cert.Gcn

open Cert.RealMath

variable {N E : ℕ}

/-- The factorised layer at node p, for one feature column g and one bias entry b. -/
def facLayer (dis : Fin N → EReal) (rowS : Fin E → Fin N) (L : Fin N → Finset (Fin E)) (g : Fin N → EReal) (b : EReal)
    (p : Fin N) : EReal :=
  dis p * ((∑ e ∈ L p, g (rowS e) * dis (rowS e)) + g p * dis p) + b

/-- The edge-normalised layer at node p. -/
def edgeLayer (dis : Fin N → EReal) (rowS rowD : Fin E → Fin N) (L : Fin N → Finset (Fin E)) (g : Fin N → EReal)
    (b : EReal) (p : Fin N) : EReal :=
  ((∑ e ∈ L p, g (rowS e) * (dis (rowS e) * dis (rowD e))) + g p * (dis p * dis p)) + b

/-- Distributivity: on real weights and real features the two layers agree. -/
theorem facLayer_eq_edgeLayer (dis : Fin N → EReal) (rowS rowD : Fin E → Fin N) (L : Fin N → Finset (Fin E))
    (hL : ∀ p, ∀ e ∈ L p, rowD e = p) (g : Fin N → EReal) (b : EReal)
    (hdis : ∀ p, IsReal (dis p)) (hg : ∀ p, IsReal (g p)) (p : Fin N) :
    facLayer dis rowS L g b p = edgeLayer dis rowS rowD L g b p := by
  unfold facLayer edgeLayer
  choose d hd using hdis
  choose gr hgr using hg
  have e1 : ∑ e ∈ L p, g (rowS e) * dis (rowS e) = ((∑ e ∈ L p, gr (rowS e) * d (rowS e) : ℝ) : EReal) := by
    rw [← coe_sum]; exact Finset.sum_congr rfl fun e _ => by rw [hgr, hd, ← EReal.coe_mul]
  have e2 : ∑ e ∈ L p, g (rowS e) * (dis (rowS e) * dis (rowD e))
      = ((∑ e ∈ L p, gr (rowS e) * (d (rowS e) * d p) : ℝ) : EReal) := by
    rw [← coe_sum]
    exact Finset.sum_congr rfl fun e he => by rw [hL p e he, hgr, hd, hd, ← EReal.coe_mul, ← EReal.coe_mul]
  rw [e1, e2, hgr, hd, ← EReal.coe_mul, ← EReal.coe_mul, ← EReal.coe_mul, ← EReal.coe_add, ← EReal.coe_add,
    ← EReal.coe_mul]
  congr 2
  rw [mul_add, Finset.mul_sum]
  congr 1
  · exact Finset.sum_congr rfl fun e _ => by ring
  · ring

/-- The factorised layer of real data and a real bias is real. -/
theorem isReal_facLayer (dis : Fin N → EReal) (rowS : Fin E → Fin N) (L : Fin N → Finset (Fin E)) (g : Fin N → EReal)
    (b : EReal) (hdis : ∀ p, IsReal (dis p)) (hg : ∀ p, IsReal (g p)) (hb : IsReal b) (p : Fin N) :
    IsReal (facLayer dis rowS L g b p) :=
  isReal_add (isReal_mul (hdis p) (isReal_add (isReal_sum _ _ fun e _ => isReal_mul (hg _) (hdis _))
    (isReal_mul (hg p) (hdis p)))) hb

/-- A matrix product of real entries is real. -/
theorem isReal_dot {K : ℕ} (a b : Fin K → EReal) (ha : ∀ k, IsReal (a k)) (hb : ∀ k, IsReal (b k)) :
    IsReal (∑ k, a k * b k) :=
  isReal_sum _ _ fun k _ => isReal_mul (ha k) (hb k)

/-- TWO LAYERS. The first layer has Fh feature columns h · f with biases b1 f and is rectified (max with 0); its
    rows are multiplied into one weight column W; the second layer is applied to that product with bias b. The
    factorised form of both layers equals the edge-normalised form of both, on real data. -/
theorem two_layers {Fh : ℕ} (dis : Fin N → EReal) (rowS rowD : Fin E → Fin N) (L : Fin N → Finset (Fin E))
    (hL : ∀ p, ∀ e ∈ L p, rowD e = p) (h : Fin N → Fin Fh → EReal) (b1 : Fin Fh → EReal) (W : Fin Fh → EReal)
    (b : EReal) (hdis : ∀ p, IsReal (dis p)) (hh : ∀ p f, IsReal (h p f)) (hb1 : ∀ f, IsReal (b1 f))
    (hW : ∀ f, IsReal (W f)) (p : Fin N) :
    facLayer dis rowS L (fun j => ∑ f, max (facLayer dis rowS L (fun i => h i f) (b1 f) j) 0 * W f) b p
      = edgeLayer dis rowS rowD L (fun j => ∑ f, max (edgeLayer dis rowS rowD L (fun i => h i f) (b1 f) j) 0 * W f) b p := by
  have e : ∀ j f, edgeLayer dis rowS rowD L (fun i => h i f) (b1 f) j = facLayer dis rowS L (fun i => h i f) (b1 f) j :=
    fun j f => (facLayer_eq_edgeLayer dis rowS rowD L hL _ _ hdis (fun i => hh i f) j).symm
  simp only [e]
  exact facLayer_eq_edgeLayer dis rowS rowD L hL _ _ hdis (fun j => isReal_dot _ _
    (fun f => isReal_max (isReal_facLayer dis rowS L _ _ hdis (fun i => hh i f) (hb1 f) j) isReal_zero) hW) p

end Cert.Gcn

end
-- ==== Proof.Graph.lean ====
/-
  The graph a two-row array of 32-bit words describes, and the degree weights, as the host operations read them.

  Edge e has a source word ei(0, e) and a target word ei(1, e). A gather reads, for a word w, the row obtained by
  adding 50000 to w when w is negative as a signed integer, reading the result as a signed integer, and clamping it
  into 0 … 49999. An accumulating scatter adds edge e's update into row p exactly when the target word, read as a
  signed integer, is p; such a word is not negative and below 50000, so the gather row of a target word that lands
  at p is p itself. The degree of node p is the number of edges landing at p plus one (a sum of ones), a positive real,
  and its weight is the reciprocal square root of the degree, again a real.
-/
import proofs.«109903_j13417477833490_2_alg».proof.Proof.Spec
import Idealize.ShloMosaic.Lib.ValueIdx
import Idealize.ShloMosaic.PureOps.Ideal.Laws

noncomputable section

namespace Cert.Gcn

open Idealize.ShloMosaic Idealize.ShloMosaic.ValueIdx Cert.RealMath

/-- A negative index word counts from the end: 50000 is added to it. -/
def nrm (w : BitVec 32) : BitVec 32 := Scalar.select (IntOp.cmpi .slt w 0#32) (IntOp.addi w 50000#32) w

/-- The row a gather reads for the index word w. -/
def rowOf (w : BitVec 32) : Fin 50000 := ⟨min (nrm w).toInt.toNat (50000 - 1), by omega⟩

/-- A word that is a node number is its own gather row. -/
theorem rowOf_of_toInt (w : BitVec 32) (p : Fin 50000) (h : w.toInt = (p.val : Int)) : rowOf w = p := by
  have hp := p.isLt
  have hn : nrm w = w := by
    unfold nrm IntOp.cmpi Scalar.select
    have : w.slt 0#32 = false := by
      rw [BitVec.slt_eq_decide]
      simp only [BitVec.toInt_zero, decide_eq_false_iff_not, not_lt]
      omega
    simp [this]
  apply Fin.ext
  show min (nrm w).toInt.toNat (50000 - 1) = p.val
  rw [hn, h]
  omega

variable (ei : (⟨2, ![2, 800000]⟩ : Shape).Idx → BitVec 32)

/-- Edge e's source word and target word. -/
def srcW (e : Fin 800000) : BitVec 32 := ei (ix2 (0 : Fin 2) e)
def dstW (e : Fin 800000) : BitVec 32 := ei (ix2 (1 : Fin 2) e)

/-- The rows a gather reads for edge e's two words. -/
def rowS (e : Fin 800000) : Fin 50000 := rowOf (srcW ei e)
def rowD (e : Fin 800000) : Fin 50000 := rowOf (dstW ei e)

/-- The edges whose update a scatter adds into row p. -/
def lands (p : Fin 50000) : Finset (Fin 800000) := Finset.univ.filter fun e => (dstW ei e).toInt = (p.val : Int)

theorem rowD_of_lands (p : Fin 50000) (e : Fin 800000) (he : e ∈ lands ei p) : rowD ei e = p :=
  rowOf_of_toInt _ p (Finset.mem_filter.mp he).2

/-- The word of 1.0 is the real number one. -/
theorem ofBits_one : Ideal.ofBits .f32 0x3F800000#32 = ((1 : ℝ) : EReal) := by
  simp [Ideal.ofBits, Ideal.ieee]
  norm_cast
  norm_num

/-- The degree of node p: one per edge landing at p, plus one. -/
def deg (p : Fin 50000) : EReal :=
  (∑ _e ∈ lands ei p, Ideal.ofBits .f32 0x3F800000#32) + Ideal.ofBits .f32 0x3F800000#32

/-- The weight of node p. -/
def dis (p : Fin 50000) : EReal := Ideal.rsqrt (deg ei p)

theorem isReal_dis (p : Fin 50000) : IsReal (dis ei p) := by
  unfold dis deg
  rw [ofBits_one, coe_sum, ← EReal.coe_add]
  refine isReal_rsqrt ?_
  have : (0 : ℝ) ≤ ∑ _e ∈ lands ei p, (1 : ℝ) := Finset.sum_nonneg fun _ _ => zero_le_one
  linarith

/-- The first layer's features: a matrix product. -/
def feat (x : (⟨2, ![50000, 512]⟩ : Shape).Idx → EReal) (w : (⟨2, ![512, 96]⟩ : Shape).Idx → EReal) (p : Fin 50000) (f : Fin 96) :
    EReal :=
  ∑ k : Fin 512, x (ix2 p k) * w (ix2 k f)

theorem isReal_feat (x : (⟨2, ![50000, 512]⟩ : Shape).Idx → EReal) (w : (⟨2, ![512, 96]⟩ : Shape).Idx → EReal)
    (hx : ∀ i, IsReal (x i)) (hw : ∀ i, IsReal (w i)) (p : Fin 50000) (f : Fin 96) : IsReal (feat x w p f) :=
  isReal_sum _ _ fun k _ => isReal_mul (hx _) (hw _)

end Cert.Gcn

end
-- ==== Proof.KernelValue.lean ====
/-
  The three-call program's two results, entry by entry.

  Reading every host operation and every call's result array at an index: the weight column's entry p is the
  reciprocal square root of the degree of node p; the first call's entry (j, f) is the feature (x W1)(j, f) times the
  weight of j; an aggregate's entry (p, f) is the sum, over the edges landing at p, of the gathered row's entry; the
  second call's entry (j, q) is the rectified combined first layer multiplied into the head weights, times the weight
  of j; the third call combines once more; and the two results are the left and the right 32 columns. Put together,
  each result entry is the factorised two-layer formula of the graph the edge array describes.
-/
import proofs.«109903_j13417477833490_2_alg».proof.Proof.KernelHost
import proofs.«109903_j13417477833490_2_alg».proof.Proof.LibSegment
import proofs.«109903_j13417477833490_2_alg».proof.Proof.LibColumn
import proofs.«109903_j13417477833490_2_alg».proof.Proof.Graph
import Idealize.ShloMosaic.Lib.Pipeline.Value

set_option maxRecDepth 16384

noncomputable section

namespace Cert.KernelIdeal.Entries

open Idealize.ShloMosaic Idealize.ShloMosaic.TcCoe Idealize.ShloMosaic.ValueIdx
open Idealize.SL Idealize.SL.Sem
open Cert.KernelIdeal Cert.KernelIdeal.Gen Cert.KernelIdeal.HostRead Cert.Gcn

variable (x7 : (⟨S2x800000, .i32⟩ : BufTy).Contents (Elt Ideal))

/-! ## The index words -/

theorem srcVec_apply (e : Fin 800000) : srcVec x7 (ix1 e) = srcW x7 e := by
  unfold srcVec
  rw [shapeCast_apply _ shapeCasts_S1x800000_S800000 (ix1 e) (ix2 (0 : Fin 1) e)
    (by rw [Shape.rowMajor_val_two, Shape.rowMajor_val_one]; show 0 * 800000 + e.val = e.val; omega)]
  exact extractStridedSlice_apply ![0, 0] x7 slices_S2x800000_S1x800000_0_0 (ix2 (0 : Fin 1) e) (ix2 (0 : Fin 2) e)
    (fun a => match a with
      | ⟨0, _⟩ => rfl
      | ⟨1, _⟩ => by show e.val = 0 + e.val; omega)

theorem dstVec_apply (e : Fin 800000) : dstVec x7 (ix1 e) = dstW x7 e := by
  unfold dstVec
  rw [shapeCast_apply _ shapeCasts_S1x800000_S800000 (ix1 e) (ix2 (0 : Fin 1) e)
    (by rw [Shape.rowMajor_val_two, Shape.rowMajor_val_one]; show 0 * 800000 + e.val = e.val; omega)]
  exact extractStridedSlice_apply ![1, 0] x7 slices_S2x800000_S1x800000_1_0 (ix2 (0 : Fin 1) e) (ix2 (1 : Fin 2) e)
    (fun a => match a with
      | ⟨0, _⟩ => rfl
      | ⟨1, _⟩ => by show e.val = 0 + e.val; omega)

theorem nrmVec_apply (s : (⟨S800000, .i32⟩ : BufTy).Contents (Elt Ideal)) (e : Fin 800000) :
    nrmVec s (ix1 e) = nrm (s (ix1 e)) := rfl

theorem colIdx_apply (v : (⟨S800000, .i32⟩ : BufTy).Contents (Elt Ideal)) (e : Fin 800000) :
    colIdx v (ix2 e (0 : Fin 1)) = v (ix1 e) :=
  Cert.Lib.broadcastInDim_a_a1_apply v bcast_S800000_S800000x1_0 e 0

/-! ## The degrees and the weights -/

theorem degVec_apply (p : Fin 50000) : degVec x7 (ix1 p) = deg x7 p := by
  unfold degVec
  rw [addf_apply]
  have key : Host.scatterAdd (F := Ideal) (φ := .f32) scatter_S50000_S800000x1_S800000_n_0_0_1 zerosN (colIdx (dstVec x7)) onesE (ix1 p)
      = zerosN (ix1 p) + ∑ e ∈ Finset.univ.filter (fun e : Fin 800000 => (colIdx (dstVec x7) (ix2 e (0 : Fin 1))).toInt = (p.val : Int)),
          onesE (ix1 e) :=
    Cert.LibSegment.scatterAdd_vec_apply (N := 50000) (E := 800000) Facts₀.scatter_S50000_S800000x1_S800000_n_0_0_1_wf
      zerosN (colIdx (dstVec x7)) onesE p
  rw [key]
  have hz : zerosN (ix1 p) = (0 : EReal) := Ideal.ofBits_zero_f32
  rw [hz, zero_add]
  unfold deg lands
  refine congrArg₂ (fun a b : EReal => a + b) ?_ ?_
  · refine Finset.sum_congr (Finset.filter_congr fun e _ => ?_) fun e _ => ?_
    · rw [colIdx_apply, dstVec_apply]
    · rfl
  · rfl

/-- The host's reciprocal square root of an array, at an index (any float instance). -/
theorem rsqrt_apply {F : FTy → Type} [FloatOps F] {s : Shape} {φ : FTy} (v : FVec F s φ) (i : s.Idx) :
    Host.rsqrt v i = FloatOps.hostUnary .rsqrt (v i) := rfl

theorem disCol_apply (p : Fin 50000) : disCol x7 (ix2 p (0 : Fin 1)) = dis x7 p := by
  unfold disCol
  rw [Cert.Lib.shapeCast_a_a1_apply, rsqrt_apply, Ideal.hostUnary_rsqrt_def, degVec_apply]
  unfold dis
  rfl

/-! ## The aggregates -/

theorem agg96_apply (h : (⟨S50000x96, .bf16⟩ : BufTy).Contents (Elt Ideal)) (p : Fin 50000) (f : Fin 96) :
    agg96 h (srcVec x7) (dstVec x7) (ix2 p f) = ∑ e ∈ lands x7 p, h (ix2 (rowS x7 e) f) := by
  refine (Cert.LibSegment.scatterAdd_rows_apply (N := 50000) (E := 800000) (F := 96)
    Facts₀.scatter_S50000x96_S800000x1_S800000x96_1_0_0_1_wf zeros96 (colIdx (dstVec x7)) _ p f).trans ?_
  have hz : zeros96 (ix2 p f) = (0 : EReal) := Ideal.ofBits_zero_f32
  rw [hz, zero_add]
  unfold lands
  refine Finset.sum_congr (Finset.filter_congr fun e _ => ?_) fun e _ => ?_
  · rw [colIdx_apply, dstVec_apply]
  · show Host.gather gather_S50000x96_S800000x1_S800000x96_1_0_n_n_0_1_196 h (colIdx (nrmVec (srcVec x7))) (ix2 e f) = _
    refine (Cert.LibSegment.gather_rows_apply (N := 50000) (E := 800000) (F := 96) (by decide)
      Facts₀.gather_S50000x96_S800000x1_S800000x96_1_0_n_n_0_1_196_wf h _ e f).trans ?_
    refine congrArg (fun r => h (ix2 r f)) (Fin.ext ?_)
    show min (colIdx (nrmVec (srcVec x7)) (ix2 e (0 : Fin 1))).toInt.toNat (50000 - 1) = (rowS x7 e).val
    rw [colIdx_apply, nrmVec_apply, srcVec_apply]
    rfl

theorem agg64_apply (h : (⟨S50000x64, .bf16⟩ : BufTy).Contents (Elt Ideal)) (p : Fin 50000) (q : Fin 64) :
    agg64 h (srcVec x7) (dstVec x7) (ix2 p q) = ∑ e ∈ lands x7 p, h (ix2 (rowS x7 e) q) := by
  refine (Cert.LibSegment.scatterAdd_rows_apply (N := 50000) (E := 800000) (F := 64)
    Facts₀.scatter_S50000x64_S800000x1_S800000x64_1_0_0_1_wf zeros64 (colIdx (dstVec x7)) _ p q).trans ?_
  have hz : zeros64 (ix2 p q) = (0 : EReal) := Ideal.ofBits_zero_f32
  rw [hz, zero_add]
  unfold lands
  refine Finset.sum_congr (Finset.filter_congr fun e _ => ?_) fun e _ => ?_
  · rw [colIdx_apply, dstVec_apply]
  · show Host.gather gather_S50000x64_S800000x1_S800000x64_1_0_n_n_0_1_164 h (colIdx (nrmVec (srcVec x7))) (ix2 e q) = _
    refine (Cert.LibSegment.gather_rows_apply (N := 50000) (E := 800000) (F := 64) (by decide)
      Facts₀.gather_S50000x64_S800000x1_S800000x64_1_0_n_n_0_1_164_wf h _ e q).trans ?_
    refine congrArg (fun r => h (ix2 r q)) (Fin.ext ?_)
    show min (colIdx (nrmVec (srcVec x7)) (ix2 e (0 : Fin 1))).toInt.toNat (50000 - 1) = (rowS x7 e).val
    rw [colIdx_apply, nrmVec_apply, srcVec_apply]
    rfl

/-! ## The bias rows, the joined head weights, the column slices -/

theorem b1Row_apply (b2 : (⟨S96, .f32⟩ : BufTy).Contents (Elt Ideal)) (f : Fin 96) :
    b1Row b2 (ix2 (0 : Fin 1) f) = b2 (ix1 f) :=
  shapeCast_apply b2 shapeCasts_S96_S1x96 (ix2 (0 : Fin 1) f) (ix1 f)
    (by rw [Shape.rowMajor_val_two, Shape.rowMajor_val_one]; show f.val = 0 * 96 + f.val; omega)

/-- Column q of the left 32 and of the right 32 columns of a 64-column array. -/
def colL (q : Fin 32) : Fin 64 := ⟨q.val, by omega⟩
def colR (q : Fin 32) : Fin 64 := ⟨32 + q.val, by omega⟩

theorem wcat_left (w3 w5 : (⟨S96x32, .f32⟩ : BufTy).Contents (Elt Ideal)) (f : Fin 96) (q : Fin 32) :
    wcat w3 w5 (ix2 f (colL q)) = w3 (ix2 f q) :=
  concatenate_pair_apply_left (1 : Fin 2) w3 w5 concatenates_S96x32_S96x32_S96x64_d1 (ix2 f (colL q)) rfl (ix2 f q)
    (fun b => match b with
      | ⟨0, _⟩ => rfl
      | ⟨1, _⟩ => rfl)

theorem wcat_right (w3 w5 : (⟨S96x32, .f32⟩ : BufTy).Contents (Elt Ideal)) (f : Fin 96) (q : Fin 32) :
    wcat w3 w5 (ix2 f (colR q)) = w5 (ix2 f q) :=
  concatenate_pair_apply_right (1 : Fin 2) w3 w5 concatenates_S96x32_S96x32_S96x64_d1 (ix2 f (colR q)) rfl rfl (ix2 f q)
    (fun b hb => match b, hb with
      | ⟨0, _⟩, _ => rfl
      | ⟨1, _⟩, hb => absurd rfl hb)
    (by show q.val + 32 = 32 + q.val; omega)

theorem bcatRow_left (b4 b6 : (⟨S32, .f32⟩ : BufTy).Contents (Elt Ideal)) (q : Fin 32) :
    bcatRow b4 b6 (ix2 (0 : Fin 1) (colL q)) = b4 (ix1 q) := by
  unfold bcatRow
  rw [shapeCast_apply _ shapeCasts_S64_S1x64 (ix2 (0 : Fin 1) (colL q)) (ix1 (colL q))
    (by rw [Shape.rowMajor_val_two, Shape.rowMajor_val_one]; show q.val = 0 * 64 + q.val; omega)]
  exact concatenate_pair_apply_left (0 : Fin 1) b4 b6 concatenates_S32_S32_S64_d0 (ix1 (colL q)) rfl (ix1 q)
    (fun b => match b with
      | ⟨0, _⟩ => rfl)

theorem bcatRow_right (b4 b6 : (⟨S32, .f32⟩ : BufTy).Contents (Elt Ideal)) (q : Fin 32) :
    bcatRow b4 b6 (ix2 (0 : Fin 1) (colR q)) = b6 (ix1 q) := by
  unfold bcatRow
  rw [shapeCast_apply _ shapeCasts_S64_S1x64 (ix2 (0 : Fin 1) (colR q)) (ix1 (colR q))
    (by rw [Shape.rowMajor_val_two, Shape.rowMajor_val_one]; show 32 + q.val = 0 * 64 + (32 + q.val); omega)]
  exact concatenate_pair_apply_right (0 : Fin 1) b4 b6 concatenates_S32_S32_S64_d0 (ix1 (colR q)) rfl rfl (ix1 q)
    (fun b hb => match b, hb with
      | ⟨0, _⟩, hb => absurd rfl hb)
    (by show q.val + 32 = 32 + q.val; omega)

theorem slice_left (X : S50000x64.Idx → EReal) (p : Fin 50000) (q : Fin 32) :
    extractStridedSlice S50000x32 ![0, 0] X slices_S50000x64_S50000x32_0_0 (ix2 p q) = X (ix2 p (colL q)) :=
  extractStridedSlice_apply ![0, 0] X slices_S50000x64_S50000x32_0_0 (ix2 p q) (ix2 p (colL q))
    (fun a => match a with
      | ⟨0, _⟩ => by show p.val = 0 + p.val; omega
      | ⟨1, _⟩ => by show q.val = 0 + q.val; omega)

theorem slice_right (X : S50000x64.Idx → EReal) (p : Fin 50000) (q : Fin 32) :
    extractStridedSlice S50000x32 ![0, 32] X slices_S50000x64_S50000x32_0_32 (ix2 p q) = X (ix2 p (colR q)) :=
  extractStridedSlice_apply ![0, 32] X slices_S50000x64_S50000x32_0_32 (ix2 p q) (ix2 p (colR q))
    (fun a => match a with
      | ⟨0, _⟩ => by show p.val = 0 + p.val; omega
      | ⟨1, _⟩ => by show 32 + q.val = 32 + q.val; omega)

end Cert.KernelIdeal.Entries

end
-- ==== Proof.KernelResult.lean ====
/-
  The two results of the three-call program as the factorised two-layer formula.

  Node j's first-layer entry in column f is the rectified factorised layer of the features (x W1)(·, f) with bias b1(f).
  The second call multiplies these into the joined head weights and scales by the weight of j; the third call is the
  factorised layer of that product with the joined head biases. The left 32 columns use the first head's weights and
  bias, the right 32 columns the second head's.
-/
import proofs.«109903_j13417477833490_2_alg».proof.Proof.KernelValue

set_option maxRecDepth 16384

noncomputable section

namespace Cert.KernelIdeal.Entries

open Idealize.ShloMosaic Idealize.ShloMosaic.TcCoe Idealize.ShloMosaic.ValueIdx
open Idealize.SL Idealize.SL.Sem
open Cert.KernelIdeal Cert.KernelIdeal.Gen Cert.KernelIdeal.HostRead Cert.Gcn

variable (m : (ℓ : Loc nD τ sig) → Buf (Elt Ideal) ℓ) (ρ : Dev nD → PrngReg)

/-- The first call's entry (j, f): the feature times the weight of j. -/
theorem h1p_apply (c : Dev nD) (j : Fin 50000) (f : Fin 96) :
    h1p m c (ix2 j f) = feat (m ((c : Thread nD τ).loc main_arg0)) (m ((c : Thread nD τ).loc main_arg1)) j f * dis (m ((c : Thread nD τ).loc main_arg7)) j := by
  unfold h1p
  rw [Region0.scaledArr_apply]
  unfold Region0.scaled
  rw [disCol_apply]
  rfl

/-- The second call's entry (j, q). -/
theorem h2p_apply (c : Dev nD) (j : Fin 50000) (q : Fin 64) :
    h2p m c (ix2 j q)
      = (∑ f : Fin 96, max (facLayer (dis (m ((c : Thread nD τ).loc main_arg7))) (rowS (m ((c : Thread nD τ).loc main_arg7))) (lands (m ((c : Thread nD τ).loc main_arg7)))
        (fun i => feat (m ((c : Thread nD τ).loc main_arg0)) (m ((c : Thread nD τ).loc main_arg1)) i f) ((m ((c : Thread nD τ).loc main_arg2)) (ix1 f)) j) 0 * wcat (m ((c : Thread nD τ).loc main_arg3)) (m ((c : Thread nD τ).loc main_arg5)) (ix2 f q)) * dis (m ((c : Thread nD τ).loc main_arg7)) j := by
  unfold h2p
  rw [Region1.secondArr_apply]
  unfold Region1.second Region1.hidden
  rw [disCol_apply]
  simp only [agg96_apply, h1p_apply, b1Row_apply]
  rfl

/-- The third call's entry (p, q). -/
theorem outc_apply (c : Dev nD) (p : Fin 50000) (q : Fin 64) :
    outc m c (ix2 p q)
      = facLayer (dis (m ((c : Thread nD τ).loc main_arg7))) (rowS (m ((c : Thread nD τ).loc main_arg7))) (lands (m ((c : Thread nD τ).loc main_arg7)))
          (fun j => ∑ f : Fin 96, max (facLayer (dis (m ((c : Thread nD τ).loc main_arg7))) (rowS (m ((c : Thread nD τ).loc main_arg7))) (lands (m ((c : Thread nD τ).loc main_arg7)))
        (fun i => feat (m ((c : Thread nD τ).loc main_arg0)) (m ((c : Thread nD τ).loc main_arg1)) i f) ((m ((c : Thread nD τ).loc main_arg2)) (ix1 f)) j) 0 * wcat (m ((c : Thread nD τ).loc main_arg3)) (m ((c : Thread nD τ).loc main_arg5)) (ix2 f q))
          (bcatRow (m ((c : Thread nD τ).loc main_arg4)) (m ((c : Thread nD τ).loc main_arg6)) (ix2 (0 : Fin 1) q)) p := by
  unfold outc
  rw [Region2.combinedArr_apply]
  unfold Region2.combined
  rw [disCol_apply, agg64_apply]
  simp only [h2p_apply]
  rfl

/-- THE FIRST RESULT at (p, q). -/
theorem mu_apply (c : Dev nD) (p : Fin 50000) (q : Fin 32) :
    W7 m ρ c (Proc.devRef .tc main_v41) (ix2 p q)
      = facLayer (dis (m ((c : Thread nD τ).loc main_arg7))) (rowS (m ((c : Thread nD τ).loc main_arg7))) (lands (m ((c : Thread nD τ).loc main_arg7)))
          (fun j => ∑ f : Fin 96, max (facLayer (dis (m ((c : Thread nD τ).loc main_arg7))) (rowS (m ((c : Thread nD τ).loc main_arg7))) (lands (m ((c : Thread nD τ).loc main_arg7)))
        (fun i => feat (m ((c : Thread nD τ).loc main_arg0)) (m ((c : Thread nD τ).loc main_arg1)) i f) ((m ((c : Thread nD τ).loc main_arg2)) (ix1 f)) j) 0 * (m ((c : Thread nD τ).loc main_arg3)) (ix2 f q))
          ((m ((c : Thread nD τ).loc main_arg4)) (ix1 q)) p := by
  rw [W7_v41, slice_left, outc_apply, bcatRow_left]
  simp only [wcat_left]

/-- THE SECOND RESULT at (p, q). -/
theorem logstd_apply (c : Dev nD) (p : Fin 50000) (q : Fin 32) :
    W7 m ρ c (Proc.devRef .tc main_v42) (ix2 p q)
      = facLayer (dis (m ((c : Thread nD τ).loc main_arg7))) (rowS (m ((c : Thread nD τ).loc main_arg7))) (lands (m ((c : Thread nD τ).loc main_arg7)))
          (fun j => ∑ f : Fin 96, max (facLayer (dis (m ((c : Thread nD τ).loc main_arg7))) (rowS (m ((c : Thread nD τ).loc main_arg7))) (lands (m ((c : Thread nD τ).loc main_arg7)))
        (fun i => feat (m ((c : Thread nD τ).loc main_arg0)) (m ((c : Thread nD τ).loc main_arg1)) i f) ((m ((c : Thread nD τ).loc main_arg2)) (ix1 f)) j) 0 * (m ((c : Thread nD τ).loc main_arg5)) (ix2 f q))
          ((m ((c : Thread nD τ).loc main_arg6)) (ix1 q)) p := by
  rw [W7_v42, slice_right, outc_apply, bcatRow_right]
  simp only [wcat_right]

end Cert.KernelIdeal.Entries

end
-- ==== Proof.RefValue.lean ====
/-
  The reference program's two results, entry by entry.

  Reading each host operation at an index: the weights are the reciprocal square roots of the degrees; each of the
  three graph convolutions gathers the weights along both words of every edge and multiplies them, gathers the feature
  row along the source word and multiplies it by that product, sums the products over the edges landing at each node,
  adds the node's own feature times its squared weight, and adds the bias. The first layer's features are x · W1 and
  its result is rectified; the two heads multiply the rectified layer into their weight matrices. So each result entry
  is the edge-normalised two-layer formula of the graph the edge array describes.
-/
import proofs.«109903_j13417477833490_2_alg».proof.Proof.Gen.ReferenceIdeal.Read
import proofs.«109903_j13417477833490_2_alg».proof.Proof.LibSegment
import proofs.«109903_j13417477833490_2_alg».proof.Proof.LibColumn
import proofs.«109903_j13417477833490_2_alg».proof.Proof.LibPlainDot
import proofs.«109903_j13417477833490_2_alg».proof.Proof.Graph
import Idealize.ShloMosaic.Lib.Pipeline.Value

set_option maxRecDepth 16384

noncomputable section

namespace Cert.ReferenceIdeal.Entries

open Idealize.ShloMosaic Idealize.ShloMosaic.ValueIdx
open Cert.ReferenceIdeal Cert.ReferenceIdeal.Gen Cert.ReferenceIdeal.Read Cert.Gcn

variable (x0 : (⟨S50000x512, .f32⟩ : BufTy).Contents (Elt Ideal)) (x1 : (⟨S512x96, .f32⟩ : BufTy).Contents (Elt Ideal))
  (x2 : (⟨S96, .f32⟩ : BufTy).Contents (Elt Ideal)) (x3 : (⟨S96x32, .f32⟩ : BufTy).Contents (Elt Ideal))
  (x4 : (⟨S32, .f32⟩ : BufTy).Contents (Elt Ideal)) (x5 : (⟨S96x32, .f32⟩ : BufTy).Contents (Elt Ideal))
  (x6 : (⟨S32, .f32⟩ : BufTy).Contents (Elt Ideal)) (x7 : (⟨S2x800000, .i32⟩ : BufTy).Contents (Elt Ideal))

/-! ## The index words, the degrees, the weights, the first features -/

theorem v1_apply (e : Fin 800000) : val_main_v1 (F := Ideal) x7 (ix1 e) = srcW x7 e := by
  unfold val_main_v1 val_main_v0
  rw [shapeCast_apply _ shapeCasts_S1x800000_S800000 (ix1 e) (ix2 (0 : Fin 1) e)
    (by rw [Shape.rowMajor_val_two, Shape.rowMajor_val_one]; show 0 * 800000 + e.val = e.val; omega)]
  exact extractStridedSlice_apply ![0, 0] x7 slices_S2x800000_S1x800000_0_0 (ix2 (0 : Fin 1) e) (ix2 (0 : Fin 2) e)
    (fun a => match a with
      | ⟨0, _⟩ => rfl
      | ⟨1, _⟩ => by show e.val = 0 + e.val; omega)

theorem v3_apply (e : Fin 800000) : val_main_v3 (F := Ideal) x7 (ix1 e) = dstW x7 e := by
  unfold val_main_v3 val_main_v2
  rw [shapeCast_apply _ shapeCasts_S1x800000_S800000 (ix1 e) (ix2 (0 : Fin 1) e)
    (by rw [Shape.rowMajor_val_two, Shape.rowMajor_val_one]; show 0 * 800000 + e.val = e.val; omega)]
  exact extractStridedSlice_apply ![1, 0] x7 slices_S2x800000_S1x800000_1_0 (ix2 (0 : Fin 1) e) (ix2 (1 : Fin 2) e)
    (fun a => match a with
      | ⟨0, _⟩ => rfl
      | ⟨1, _⟩ => by show e.val = 0 + e.val; omega)

theorem v10_apply (p : Fin 50000) : val_main_v10 (F := Ideal) x7 (ix1 p) = dis x7 p := by
  rw [val_main_v10_apply, Ideal.hostUnary_rsqrt_def, val_main_v9_apply, Ideal.addf_def]
  have key : val_main_v7 (F := Ideal) x7 (ix1 p)
      = val_main_v5 (F := Ideal) (ix1 p) + ∑ e ∈ Finset.univ.filter (fun e : Fin 800000 =>
          (val_main_v6 (F := Ideal) x7 (ix2 e (0 : Fin 1))).toInt = (p.val : Int)), val_main_v4 (F := Ideal) (ix1 e) :=
    Cert.LibSegment.scatterAdd_vec_apply (N := 50000) (E := 800000) Facts₀.scatter_S50000_S800000x1_S800000_n_0_0_1_wf
      (val_main_v5 (F := Ideal)) (val_main_v6 (F := Ideal) x7) (val_main_v4 (F := Ideal)) p
  rw [key]
  have hz : val_main_v5 (F := Ideal) (ix1 p) = (0 : EReal) := Ideal.ofBits_zero_f32
  rw [hz, zero_add]
  unfold dis deg lands
  refine congrArg Ideal.rsqrt (congrArg₂ (fun a b : EReal => a + b) ?_ ?_)
  · refine Finset.sum_congr (Finset.filter_congr fun e _ => ?_) fun e _ => ?_
    · rw [show val_main_v6 (F := Ideal) x7 (ix2 e (0 : Fin 1)) = dstW x7 e from
        (Cert.Lib.broadcastInDim_a_a1_apply _ bcast_S800000_S800000x1_0 e 0).trans (v3_apply x7 e)]
    · rfl
  · rfl

theorem v11_apply (p : Fin 50000) (f : Fin 96) : val_main_v11 (F := Ideal) x0 x1 (ix2 p f) = feat x0 x1 p f :=
  Cert.Lib.dotGeneral_plain_apply Facts₀.dot_S50000x512_S512x96_S50000x96_1_0_0_1_n_n_wf none .single x0 x1 p f

/-! ## The first layer (96 feature columns) -/

theorem v17_apply (e : Fin 800000) : val_main_v17 (F := Ideal) x7 (ix2 e (0 : Fin 1)) = nrm (srcW x7 e) := by
  refine (Cert.Lib.broadcastInDim_a_a1_apply _ bcast_S800000_S800000x1_0 e 0).trans ?_
  rw [← v1_apply]
  rfl
theorem v24_apply (e : Fin 800000) : val_main_v24 (F := Ideal) x7 (ix2 e (0 : Fin 1)) = nrm (dstW x7 e) := by
  refine (Cert.Lib.broadcastInDim_a_a1_apply _ bcast_S800000_S800000x1_0 e 0).trans ?_
  rw [← v3_apply]
  rfl
theorem v32_apply (e : Fin 800000) : val_main_v32 (F := Ideal) x7 (ix2 e (0 : Fin 1)) = nrm (srcW x7 e) := by
  refine (Cert.Lib.broadcastInDim_a_a1_apply _ bcast_S800000_S800000x1_0 e 0).trans ?_
  rw [← v1_apply]
  rfl
theorem v38_apply (e : Fin 800000) : val_main_v38 (F := Ideal) x7 (ix2 e (0 : Fin 1)) = dstW x7 e :=
  (Cert.Lib.broadcastInDim_a_a1_apply _ bcast_S800000_S800000x1_0 e 0).trans (v3_apply x7 e)

/-- The weight gathered along the source word, and along the target word. -/
theorem v18_apply (e : Fin 800000) : val_main_v18 (F := Ideal) x7 (ix1 e) = dis x7 (rowS x7 e) := by
  refine (Cert.LibSegment.gather_vec_apply (N := 50000) (E := 800000) (by decide)
    Facts₀.gather_S50000_S800000x1_S800000_n_0_n_n_0_1_1_wf (val_main_v10 (F := Ideal) x7) (val_main_v17 (F := Ideal) x7) e).trans ?_
  refine (congrArg (fun r => val_main_v10 (F := Ideal) x7 (ix1 r)) (Fin.ext ?_)).trans (v10_apply x7 (rowS x7 e))
  show min (val_main_v17 (F := Ideal) x7 (ix2 e (0 : Fin 1))).toInt.toNat (50000 - 1) = (rowS x7 e).val
  rw [v17_apply]
  rfl
theorem v25_apply (e : Fin 800000) : val_main_v25 (F := Ideal) x7 (ix1 e) = dis x7 (rowD x7 e) := by
  refine (Cert.LibSegment.gather_vec_apply (N := 50000) (E := 800000) (by decide)
    Facts₀.gather_S50000_S800000x1_S800000_n_0_n_n_0_1_1_wf (val_main_v10 (F := Ideal) x7) (val_main_v24 (F := Ideal) x7) e).trans ?_
  refine (congrArg (fun r => val_main_v10 (F := Ideal) x7 (ix1 r)) (Fin.ext ?_)).trans (v10_apply x7 (rowD x7 e))
  show min (val_main_v24 (F := Ideal) x7 (ix2 e (0 : Fin 1))).toInt.toNat (50000 - 1) = (rowD x7 e).val
  rw [v24_apply]
  rfl

/-- The edge's normalisation, repeated along the feature axis. -/
theorem v35_apply (e : Fin 800000) (f : Fin 96) :
    val_main_v35 (F := Ideal) x7 (ix2 e f) = dis x7 (rowS x7 e) * dis x7 (rowD x7 e) := by
  refine (Cert.Lib.broadcastInDim_a1_ab_apply _ bcast_S800000x1_S800000x96_0_1 e f).trans ?_
  refine (Cert.Lib.broadcastInDim_a_a1_apply _ bcast_S800000_S800000x1_0 e 0).trans ?_
  rw [val_main_v26_apply, Ideal.mulf_def, v18_apply, v25_apply]

/-- The feature row gathered along the source word. -/
theorem v33_apply (e : Fin 800000) (f : Fin 96) :
    val_main_v33 (F := Ideal) x0 x1 x7 (ix2 e f) = val_main_v11 (F := Ideal) x0 x1 (ix2 (rowS x7 e) f) := by
  refine (Cert.LibSegment.gather_rows_apply (N := 50000) (E := 800000) (F := 96) (by decide)
    Facts₀.gather_S50000x96_S800000x1_S800000x96_1_0_n_n_0_1_196_wf (val_main_v11 (F := Ideal) x0 x1) (val_main_v32 (F := Ideal) x7) e f).trans ?_
  refine congrArg (fun r => val_main_v11 (F := Ideal) x0 x1 (ix2 r f)) (Fin.ext ?_)
  show min (val_main_v32 (F := Ideal) x7 (ix2 e (0 : Fin 1))).toInt.toNat (50000 - 1) = (rowS x7 e).val
  rw [v32_apply]
  rfl

/-- The aggregate: the sum, over the edges landing at p, of the gathered feature times the edge's normalisation. -/
theorem v39_apply (p : Fin 50000) (f : Fin 96) :
    val_main_v39 (F := Ideal) x0 x1 x7 (ix2 p f)
      = ∑ e ∈ lands x7 p, val_main_v11 (F := Ideal) x0 x1 (ix2 (rowS x7 e) f) * (dis x7 (rowS x7 e) * dis x7 (rowD x7 e)) := by
  refine (Cert.LibSegment.scatterAdd_rows_apply (N := 50000) (E := 800000) (F := 96)
    Facts₀.scatter_S50000x96_S800000x1_S800000x96_1_0_0_1_wf (val_main_v37 (F := Ideal)) (val_main_v38 (F := Ideal) x7) (val_main_v36 (F := Ideal) x0 x1 x7) p f).trans ?_
  have hz : val_main_v37 (F := Ideal) (ix2 p f) = (0 : EReal) := Ideal.ofBits_zero_f32
  rw [hz, zero_add]
  unfold lands
  refine Finset.sum_congr (Finset.filter_congr fun e _ => ?_) fun e _ => ?_
  · rw [v38_apply]
  · rw [val_main_v36_apply, Ideal.mulf_def, v33_apply, v35_apply]

/-- The squared weight, repeated along the feature axis; the bias, repeated along the node axis. -/
theorem v42_apply (p : Fin 50000) (f : Fin 96) : val_main_v42 (F := Ideal) x7 (ix2 p f) = dis x7 p * dis x7 p := by
  refine (Cert.Lib.broadcastInDim_a1_ab_apply _ bcast_S50000x1_S50000x96_0_1 p f).trans ?_
  refine (Cert.Lib.broadcastInDim_a_a1_apply _ bcast_S50000_S50000x1_0 p 0).trans ?_
  rw [val_main_v40_apply, Ideal.mulf_def, v10_apply]
theorem v46_apply (p : Fin 50000) (f : Fin 96) : val_main_v46 (F := Ideal) x2 (ix2 p f) = x2 (ix1 f) :=
  (Cert.Lib.broadcastInDim_1b_ab_apply _ bcast_S1x96_S50000x96_0_1 p f).trans
    (Cert.Lib.broadcastInDim_b_1b_apply x2 bcast_S96_S1x96_1 0 f)

/-- THE LAYER at (p, f): the edge-normalised form. -/
theorem v47_apply (p : Fin 50000) (f : Fin 96) :
    val_main_v47 (F := Ideal) x0 x1 x2 x7 (ix2 p f)
      = edgeLayer (dis x7) (rowS x7) (rowD x7) (lands x7) (fun i => val_main_v11 (F := Ideal) x0 x1 (ix2 i f)) (x2 (ix1 f)) p := by
  rw [val_main_v47_apply, val_main_v44_apply, val_main_v43_apply, Ideal.addf_def, Ideal.addf_def, Ideal.mulf_def,
    v39_apply, v42_apply, v46_apply]
  rfl

/-! ## The rectified first layer and the two head products -/

theorem v48_apply (p : Fin 50000) (f : Fin 96) :
    val_main_v48 (F := Ideal) x0 x1 x2 x7 (ix2 p f)
      = max (edgeLayer (dis x7) (rowS x7) (rowD x7) (lands x7) (fun i => feat x0 x1 i f) (x2 (ix1 f)) p) 0 := by
  rw [val_main_v48_apply, Ideal.maximumf_def, v47_apply]
  have hz : val_main_call0_v0 (F := Ideal) (ix2 p f) = (0 : EReal) := Ideal.ofBits_zero_f32
  rw [hz]
  simp only [v11_apply]

theorem v49_apply (p : Fin 50000) (q : Fin 32) :
    val_main_v49 (F := Ideal) x0 x1 x2 x3 x7 (ix2 p q) = ∑ f : Fin 96, val_main_v48 (F := Ideal) x0 x1 x2 x7 (ix2 p f) * x3 (ix2 f q) :=
  Cert.Lib.dotGeneral_plain_apply Facts₀.dot_S50000x96_S96x32_S50000x32_1_0_0_1_n_n_wf none .single (val_main_v48 (F := Ideal) x0 x1 x2 x7) x3 p q

theorem v86_apply (p : Fin 50000) (q : Fin 32) :
    val_main_v86 (F := Ideal) x0 x1 x2 x5 x7 (ix2 p q) = ∑ f : Fin 96, val_main_v48 (F := Ideal) x0 x1 x2 x7 (ix2 p f) * x5 (ix2 f q) :=
  Cert.Lib.dotGeneral_plain_apply Facts₀.dot_S50000x96_S96x32_S50000x32_1_0_0_1_n_n_wf none .single (val_main_v48 (F := Ideal) x0 x1 x2 x7) x5 p q

/-! ## The first head (32 columns) -/

theorem v55_apply (e : Fin 800000) : val_main_v55 (F := Ideal) x7 (ix2 e (0 : Fin 1)) = nrm (srcW x7 e) := by
  refine (Cert.Lib.broadcastInDim_a_a1_apply _ bcast_S800000_S800000x1_0 e 0).trans ?_
  rw [← v1_apply]
  rfl
theorem v62_apply (e : Fin 800000) : val_main_v62 (F := Ideal) x7 (ix2 e (0 : Fin 1)) = nrm (dstW x7 e) := by
  refine (Cert.Lib.broadcastInDim_a_a1_apply _ bcast_S800000_S800000x1_0 e 0).trans ?_
  rw [← v3_apply]
  rfl
theorem v70_apply (e : Fin 800000) : val_main_v70 (F := Ideal) x7 (ix2 e (0 : Fin 1)) = nrm (srcW x7 e) := by
  refine (Cert.Lib.broadcastInDim_a_a1_apply _ bcast_S800000_S800000x1_0 e 0).trans ?_
  rw [← v1_apply]
  rfl
theorem v76_apply (e : Fin 800000) : val_main_v76 (F := Ideal) x7 (ix2 e (0 : Fin 1)) = dstW x7 e :=
  (Cert.Lib.broadcastInDim_a_a1_apply _ bcast_S800000_S800000x1_0 e 0).trans (v3_apply x7 e)

/-- The weight gathered along the source word, and along the target word. -/
theorem v56_apply (e : Fin 800000) : val_main_v56 (F := Ideal) x7 (ix1 e) = dis x7 (rowS x7 e) := by
  refine (Cert.LibSegment.gather_vec_apply (N := 50000) (E := 800000) (by decide)
    Facts₀.gather_S50000_S800000x1_S800000_n_0_n_n_0_1_1_wf (val_main_v10 (F := Ideal) x7) (val_main_v55 (F := Ideal) x7) e).trans ?_
  refine (congrArg (fun r => val_main_v10 (F := Ideal) x7 (ix1 r)) (Fin.ext ?_)).trans (v10_apply x7 (rowS x7 e))
  show min (val_main_v55 (F := Ideal) x7 (ix2 e (0 : Fin 1))).toInt.toNat (50000 - 1) = (rowS x7 e).val
  rw [v55_apply]
  rfl
theorem v63_apply (e : Fin 800000) : val_main_v63 (F := Ideal) x7 (ix1 e) = dis x7 (rowD x7 e) := by
  refine (Cert.LibSegment.gather_vec_apply (N := 50000) (E := 800000) (by decide)
    Facts₀.gather_S50000_S800000x1_S800000_n_0_n_n_0_1_1_wf (val_main_v10 (F := Ideal) x7) (val_main_v62 (F := Ideal) x7) e).trans ?_
  refine (congrArg (fun r => val_main_v10 (F := Ideal) x7 (ix1 r)) (Fin.ext ?_)).trans (v10_apply x7 (rowD x7 e))
  show min (val_main_v62 (F := Ideal) x7 (ix2 e (0 : Fin 1))).toInt.toNat (50000 - 1) = (rowD x7 e).val
  rw [v62_apply]
  rfl

/-- The edge's normalisation, repeated along the feature axis. -/
theorem v73_apply (e : Fin 800000) (f : Fin 32) :
    val_main_v73 (F := Ideal) x7 (ix2 e f) = dis x7 (rowS x7 e) * dis x7 (rowD x7 e) := by
  refine (Cert.Lib.broadcastInDim_a1_ab_apply _ bcast_S800000x1_S800000x32_0_1 e f).trans ?_
  refine (Cert.Lib.broadcastInDim_a_a1_apply _ bcast_S800000_S800000x1_0 e 0).trans ?_
  rw [val_main_v64_apply, Ideal.mulf_def, v56_apply, v63_apply]

/-- The feature row gathered along the source word. -/
theorem v71_apply (e : Fin 800000) (f : Fin 32) :
    val_main_v71 (F := Ideal) x0 x1 x2 x3 x7 (ix2 e f) = val_main_v49 (F := Ideal) x0 x1 x2 x3 x7 (ix2 (rowS x7 e) f) := by
  refine (Cert.LibSegment.gather_rows_apply (N := 50000) (E := 800000) (F := 32) (by decide)
    Facts₀.gather_S50000x32_S800000x1_S800000x32_1_0_n_n_0_1_132_wf (val_main_v49 (F := Ideal) x0 x1 x2 x3 x7) (val_main_v70 (F := Ideal) x7) e f).trans ?_
  refine congrArg (fun r => val_main_v49 (F := Ideal) x0 x1 x2 x3 x7 (ix2 r f)) (Fin.ext ?_)
  show min (val_main_v70 (F := Ideal) x7 (ix2 e (0 : Fin 1))).toInt.toNat (50000 - 1) = (rowS x7 e).val
  rw [v70_apply]
  rfl

/-- The aggregate: the sum, over the edges landing at p, of the gathered feature times the edge's normalisation. -/
theorem v77_apply (p : Fin 50000) (f : Fin 32) :
    val_main_v77 (F := Ideal) x0 x1 x2 x3 x7 (ix2 p f)
      = ∑ e ∈ lands x7 p, val_main_v49 (F := Ideal) x0 x1 x2 x3 x7 (ix2 (rowS x7 e) f) * (dis x7 (rowS x7 e) * dis x7 (rowD x7 e)) := by
  refine (Cert.LibSegment.scatterAdd_rows_apply (N := 50000) (E := 800000) (F := 32)
    Facts₀.scatter_S50000x32_S800000x1_S800000x32_1_0_0_1_wf (val_main_v75 (F := Ideal)) (val_main_v76 (F := Ideal) x7) (val_main_v74 (F := Ideal) x0 x1 x2 x3 x7) p f).trans ?_
  have hz : val_main_v75 (F := Ideal) (ix2 p f) = (0 : EReal) := Ideal.ofBits_zero_f32
  rw [hz, zero_add]
  unfold lands
  refine Finset.sum_congr (Finset.filter_congr fun e _ => ?_) fun e _ => ?_
  · rw [v76_apply]
  · rw [val_main_v74_apply, Ideal.mulf_def, v71_apply, v73_apply]

/-- The squared weight, repeated along the feature axis; the bias, repeated along the node axis. -/
theorem v80_apply (p : Fin 50000) (f : Fin 32) : val_main_v80 (F := Ideal) x7 (ix2 p f) = dis x7 p * dis x7 p := by
  refine (Cert.Lib.broadcastInDim_a1_ab_apply _ bcast_S50000x1_S50000x32_0_1 p f).trans ?_
  refine (Cert.Lib.broadcastInDim_a_a1_apply _ bcast_S50000_S50000x1_0 p 0).trans ?_
  rw [val_main_v78_apply, Ideal.mulf_def, v10_apply]
theorem v84_apply (p : Fin 50000) (f : Fin 32) : val_main_v84 (F := Ideal) x4 (ix2 p f) = x4 (ix1 f) :=
  (Cert.Lib.broadcastInDim_1b_ab_apply _ bcast_S1x32_S50000x32_0_1 p f).trans
    (Cert.Lib.broadcastInDim_b_1b_apply x4 bcast_S32_S1x32_1 0 f)

/-- THE LAYER at (p, f): the edge-normalised form. -/
theorem v85_apply (p : Fin 50000) (f : Fin 32) :
    val_main_v85 (F := Ideal) x0 x1 x2 x3 x4 x7 (ix2 p f)
      = edgeLayer (dis x7) (rowS x7) (rowD x7) (lands x7) (fun i => val_main_v49 (F := Ideal) x0 x1 x2 x3 x7 (ix2 i f)) (x4 (ix1 f)) p := by
  rw [val_main_v85_apply, val_main_v82_apply, val_main_v81_apply, Ideal.addf_def, Ideal.addf_def, Ideal.mulf_def,
    v77_apply, v80_apply, v84_apply]
  rfl

/-! ## The second head (32 columns) -/

theorem v92_apply (e : Fin 800000) : val_main_v92 (F := Ideal) x7 (ix2 e (0 : Fin 1)) = nrm (srcW x7 e) := by
  refine (Cert.Lib.broadcastInDim_a_a1_apply _ bcast_S800000_S800000x1_0 e 0).trans ?_
  rw [← v1_apply]
  rfl
theorem v99_apply (e : Fin 800000) : val_main_v99 (F := Ideal) x7 (ix2 e (0 : Fin 1)) = nrm (dstW x7 e) := by
  refine (Cert.Lib.broadcastInDim_a_a1_apply _ bcast_S800000_S800000x1_0 e 0).trans ?_
  rw [← v3_apply]
  rfl
theorem v107_apply (e : Fin 800000) : val_main_v107 (F := Ideal) x7 (ix2 e (0 : Fin 1)) = nrm (srcW x7 e) := by
  refine (Cert.Lib.broadcastInDim_a_a1_apply _ bcast_S800000_S800000x1_0 e 0).trans ?_
  rw [← v1_apply]
  rfl
theorem v113_apply (e : Fin 800000) : val_main_v113 (F := Ideal) x7 (ix2 e (0 : Fin 1)) = dstW x7 e :=
  (Cert.Lib.broadcastInDim_a_a1_apply _ bcast_S800000_S800000x1_0 e 0).trans (v3_apply x7 e)

/-- The weight gathered along the source word, and along the target word. -/
theorem v93_apply (e : Fin 800000) : val_main_v93 (F := Ideal) x7 (ix1 e) = dis x7 (rowS x7 e) := by
  refine (Cert.LibSegment.gather_vec_apply (N := 50000) (E := 800000) (by decide)
    Facts₀.gather_S50000_S800000x1_S800000_n_0_n_n_0_1_1_wf (val_main_v10 (F := Ideal) x7) (val_main_v92 (F := Ideal) x7) e).trans ?_
  refine (congrArg (fun r => val_main_v10 (F := Ideal) x7 (ix1 r)) (Fin.ext ?_)).trans (v10_apply x7 (rowS x7 e))
  show min (val_main_v92 (F := Ideal) x7 (ix2 e (0 : Fin 1))).toInt.toNat (50000 - 1) = (rowS x7 e).val
  rw [v92_apply]
  rfl
theorem v100_apply (e : Fin 800000) : val_main_v100 (F := Ideal) x7 (ix1 e) = dis x7 (rowD x7 e) := by
  refine (Cert.LibSegment.gather_vec_apply (N := 50000) (E := 800000) (by decide)
    Facts₀.gather_S50000_S800000x1_S800000_n_0_n_n_0_1_1_wf (val_main_v10 (F := Ideal) x7) (val_main_v99 (F := Ideal) x7) e).trans ?_
  refine (congrArg (fun r => val_main_v10 (F := Ideal) x7 (ix1 r)) (Fin.ext ?_)).trans (v10_apply x7 (rowD x7 e))
  show min (val_main_v99 (F := Ideal) x7 (ix2 e (0 : Fin 1))).toInt.toNat (50000 - 1) = (rowD x7 e).val
  rw [v99_apply]
  rfl

/-- The edge's normalisation, repeated along the feature axis. -/
theorem v110_apply (e : Fin 800000) (f : Fin 32) :
    val_main_v110 (F := Ideal) x7 (ix2 e f) = dis x7 (rowS x7 e) * dis x7 (rowD x7 e) := by
  refine (Cert.Lib.broadcastInDim_a1_ab_apply _ bcast_S800000x1_S800000x32_0_1 e f).trans ?_
  refine (Cert.Lib.broadcastInDim_a_a1_apply _ bcast_S800000_S800000x1_0 e 0).trans ?_
  rw [val_main_v101_apply, Ideal.mulf_def, v93_apply, v100_apply]

/-- The feature row gathered along the source word. -/
theorem v108_apply (e : Fin 800000) (f : Fin 32) :
    val_main_v108 (F := Ideal) x0 x1 x2 x5 x7 (ix2 e f) = val_main_v86 (F := Ideal) x0 x1 x2 x5 x7 (ix2 (rowS x7 e) f) := by
  refine (Cert.LibSegment.gather_rows_apply (N := 50000) (E := 800000) (F := 32) (by decide)
    Facts₀.gather_S50000x32_S800000x1_S800000x32_1_0_n_n_0_1_132_wf (val_main_v86 (F := Ideal) x0 x1 x2 x5 x7) (val_main_v107 (F := Ideal) x7) e f).trans ?_
  refine congrArg (fun r => val_main_v86 (F := Ideal) x0 x1 x2 x5 x7 (ix2 r f)) (Fin.ext ?_)
  show min (val_main_v107 (F := Ideal) x7 (ix2 e (0 : Fin 1))).toInt.toNat (50000 - 1) = (rowS x7 e).val
  rw [v107_apply]
  rfl

/-- The aggregate: the sum, over the edges landing at p, of the gathered feature times the edge's normalisation. -/
theorem v114_apply (p : Fin 50000) (f : Fin 32) :
    val_main_v114 (F := Ideal) x0 x1 x2 x5 x7 (ix2 p f)
      = ∑ e ∈ lands x7 p, val_main_v86 (F := Ideal) x0 x1 x2 x5 x7 (ix2 (rowS x7 e) f) * (dis x7 (rowS x7 e) * dis x7 (rowD x7 e)) := by
  refine (Cert.LibSegment.scatterAdd_rows_apply (N := 50000) (E := 800000) (F := 32)
    Facts₀.scatter_S50000x32_S800000x1_S800000x32_1_0_0_1_wf (val_main_v112 (F := Ideal)) (val_main_v113 (F := Ideal) x7) (val_main_v111 (F := Ideal) x0 x1 x2 x5 x7) p f).trans ?_
  have hz : val_main_v112 (F := Ideal) (ix2 p f) = (0 : EReal) := Ideal.ofBits_zero_f32
  rw [hz, zero_add]
  unfold lands
  refine Finset.sum_congr (Finset.filter_congr fun e _ => ?_) fun e _ => ?_
  · rw [v113_apply]
  · rw [val_main_v111_apply, Ideal.mulf_def, v108_apply, v110_apply]

/-- The squared weight, repeated along the feature axis; the bias, repeated along the node axis. -/
theorem v117_apply (p : Fin 50000) (f : Fin 32) : val_main_v117 (F := Ideal) x7 (ix2 p f) = dis x7 p * dis x7 p := by
  refine (Cert.Lib.broadcastInDim_a1_ab_apply _ bcast_S50000x1_S50000x32_0_1 p f).trans ?_
  refine (Cert.Lib.broadcastInDim_a_a1_apply _ bcast_S50000_S50000x1_0 p 0).trans ?_
  rw [val_main_v115_apply, Ideal.mulf_def, v10_apply]
theorem v121_apply (p : Fin 50000) (f : Fin 32) : val_main_v121 (F := Ideal) x6 (ix2 p f) = x6 (ix1 f) :=
  (Cert.Lib.broadcastInDim_1b_ab_apply _ bcast_S1x32_S50000x32_0_1 p f).trans
    (Cert.Lib.broadcastInDim_b_1b_apply x6 bcast_S32_S1x32_1 0 f)

/-- THE LAYER at (p, f): the edge-normalised form. -/
theorem v122_apply (p : Fin 50000) (f : Fin 32) :
    val_main_v122 (F := Ideal) x0 x1 x2 x5 x6 x7 (ix2 p f)
      = edgeLayer (dis x7) (rowS x7) (rowD x7) (lands x7) (fun i => val_main_v86 (F := Ideal) x0 x1 x2 x5 x7 (ix2 i f)) (x6 (ix1 f)) p := by
  rw [val_main_v122_apply, val_main_v119_apply, val_main_v118_apply, Ideal.addf_def, Ideal.addf_def, Ideal.mulf_def,
    v114_apply, v117_apply, v121_apply]
  rfl

end Cert.ReferenceIdeal.Entries

end
-- ==== Proof.LibAllFinite.lean ====
/-
  From a "finite inputs" precondition to real numbers, for an array of any shape over the extended reals.
  Such a precondition is, per float argument, an all-reduction (a reduce by `and` of a one-bit array into a
  result of one index) of the comparison |x| < +∞, entry by entry. An extended real whose absolute value
  max x (−x) is below the word of +∞ is neither −∞ nor +∞ (|−∞| = |+∞| = +∞), hence a real number; so when the
  all-reduction is one, every entry of the argument is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.AllFinite

open Idealize.ShloMosaic Idealize.ShloMosaic.ValueIdx

/-- A rank-0 array has one index. -/
instance scalarIdxSubsingleton : Subsingleton (⟨0, ![]⟩ : Shape).Idx := ⟨fun a b => funext fun d => d.elim0⟩

/-- An extended real whose absolute value is below the word of +∞ is a real number. -/
theorem real_of_abs_lt_top (x : EReal)
    (h : Ideal.cmp .olt (max x (-x)) (Ideal.ofBits .f32 0x7F800000#32) = 1#1) : ∃ r : ℝ, x = (r : EReal) := by
  have hT : Ideal.ofBits .f32 0x7F800000#32 = ⊤ := by simp [Ideal.ofBits, Ideal.ieee]
  rw [hT] at h
  induction x using EReal.rec with
  | bot => simp [Ideal.cmp] at h
  | coe r => exact ⟨r, rfl⟩
  | top => simp [Ideal.cmp] at h

/-- `jnp.all(|x| < +∞)` being one — the host's all-reduction, over any axes, into one index, of the comparison of
    the host's absolute value of `x` with the broadcast word of +∞ — makes every entry of `x` a real number. -/
theorem real_of_all {s : Shape} {axes : List (Fin s.rank)} (x : s.Idx → EReal)
    (hb : (⟨0, ![]⟩ : Shape).BroadcastsInDim s ![]) (hr : s.ReducesTo axes ⟨0, ![]⟩)
    (hu : 0 < (⟨0, ![]⟩ : Shape).numel)
    (e : Host.reduce IntOp.andi (cmpf (F := Ideal) (φ := .f32) .olt (Host.absf (F := Ideal) (φ := .f32) x)
        (broadcastInDim s ![] hb (constant (F := Ideal) ⟨0, ![]⟩ .f32 0x7F800000#32)))
        (constantI ⟨0, ![]⟩ 1 1#1) hr hu ix0 = 1#1) (i : s.Idx) : ∃ r : ℝ, x i = (r : EReal) := by
  have hi := Host.reduce_andi_all _ _ hr hu ix0 e i
  have hc : broadcastInDim s ![] hb (constant (F := Ideal) ⟨0, ![]⟩ .f32 0x7F800000#32) i
      = Ideal.ofBits .f32 0x7F800000#32 := broadcastInDim_scalar_apply hb _ i
  refine real_of_abs_lt_top (x i) ?_
  rw [← hc]
  exact hi

end Cert.Lib.AllFinite

end
-- ==== Proof.Finite.lean ====
/-
  From the "finite inputs" precondition to real numbers.

  The precondition is the conjunction, over the seven float arguments, of "every entry has absolute value below +∞".
  A conjunction of one-bit words is one exactly when each conjunct is one, and each conjunct being one makes every entry
  of its argument a real number.
-/
import proofs.«109903_j13417477833490_2_alg».proof.Pre_finite_inputs
import proofs.«109903_j13417477833490_2_alg».proof.Proof.LibAllFinite
import proofs.«109903_j13417477833490_2_alg».proof.Proof.LibRealVar
import Idealize.ShloMosaic.Lib.Affine

noncomputable section

namespace Cert.Finite

open Idealize.ShloMosaic Idealize.ShloMosaic.ValueIdx Cert.RealMath Cert.Pre_finite_inputs

/-- Under the precondition every entry of each of the seven float arguments is a real number. -/
theorem reals_of_pre [Cert.Pre_finite_inputs.Facts]
    (a0 : FVec Ideal S50000x512 .f32) (a1 : FVec Ideal S512x96 .f32) (a2 : FVec Ideal S96 .f32) (a3 : FVec Ideal S96x32 .f32)
    (a4 : FVec Ideal S32 .f32) (a5 : FVec Ideal S96x32 .f32) (a6 : FVec Ideal S32 .f32) (a7 : IVec S2x800000 32)
    (h : fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) := by
  have h0 : fn (F := Ideal) a0 a1 a2 a3 a4 a5 a6 a7 ix0 = 1#1 := congrFun h ix0
  dsimp only [fn, fn_part1] at h0
  obtain ⟨h0, r6⟩ := IntOp.andi_eq_one.mp h0
  obtain ⟨h0, r5⟩ := IntOp.andi_eq_one.mp h0
  obtain ⟨h0, r4⟩ := IntOp.andi_eq_one.mp h0
  obtain ⟨h0, r3⟩ := IntOp.andi_eq_one.mp h0
  obtain ⟨h0, r2⟩ := IntOp.andi_eq_one.mp h0
  obtain ⟨r0, r1⟩ := IntOp.andi_eq_one.mp h0
  exact ⟨Cert.Lib.AllFinite.real_of_all a0 _ _ _ r0, Cert.Lib.AllFinite.real_of_all a1 _ _ _ r1,
    Cert.Lib.AllFinite.real_of_all a2 _ _ _ r2, Cert.Lib.AllFinite.real_of_all a3 _ _ _ r3,
    Cert.Lib.AllFinite.real_of_all a4 _ _ _ r4, Cert.Lib.AllFinite.real_of_all a5 _ _ _ r5,
    Cert.Lib.AllFinite.real_of_all a6 _ _ _ r6⟩

end Cert.Finite

end
-- ==== Proof.Bridge.lean ====
/-
  The two programs' result entries are one number.

  Both are the two-layer graph convolution of the same graph with the same weights: the three-call program in the
  factorised form, the reference in the edge-normalised form. On real inputs the forms agree (distributivity, and the
  gather row of a landing target word being the node itself).
-/
import proofs.«109903_j13417477833490_2_alg».proof.Proof.Graph

noncomputable section

namespace Cert.Gcn

open Idealize.ShloMosaic Idealize.ShloMosaic.ValueIdx Cert.RealMath

/-- One result entry (node p, column q of a head with weights w and bias b): the edge-normalised two-layer form equals
    the factorised one when the features, the first bias and the head weights are real. -/
theorem head_entry (x0 : (⟨2, ![50000, 512]⟩ : Shape).Idx → EReal) (x1 : (⟨2, ![512, 96]⟩ : Shape).Idx → EReal)
    (x2 : (⟨1, ![96]⟩ : Shape).Idx → EReal) (w : (⟨2, ![96, 32]⟩ : Shape).Idx → EReal) (b : (⟨1, ![32]⟩ : Shape).Idx → EReal)
    (ei : (⟨2, ![2, 800000]⟩ : Shape).Idx → BitVec 32)
    (h0 : ∀ i, IsReal (x0 i)) (h1 : ∀ i, IsReal (x1 i)) (h2 : ∀ i, IsReal (x2 i)) (hw : ∀ i, IsReal (w i))
    (p : Fin 50000) (q : Fin 32) :
    edgeLayer (dis ei) (rowS ei) (rowD ei) (lands ei)
        (fun i => ∑ f : Fin 96, max (edgeLayer (dis ei) (rowS ei) (rowD ei) (lands ei) (fun i => feat x0 x1 i f) (x2 (ix1 f)) i) 0
          * w (ix2 f q)) (b (ix1 q)) p
      = facLayer (dis ei) (rowS ei) (lands ei)
        (fun j => ∑ f : Fin 96, max (facLayer (dis ei) (rowS ei) (lands ei) (fun i => feat x0 x1 i f) (x2 (ix1 f)) j) 0
          * w (ix2 f q)) (b (ix1 q)) p :=
  (two_layers (dis ei) (rowS ei) (rowD ei) (lands ei) (rowD_of_lands ei) (feat x0 x1) (fun f => x2 (ix1 f))
    (fun f => w (ix2 f q)) (b (ix1 q)) (isReal_dis ei) (isReal_feat x0 x1 h0 h1) (fun f => h2 _) (fun f => hw _) p).symm

end Cert.Gcn

end
-- ==== Proof.lean ====
/-
  The certificate of a two-layer graph-convolution encoder: a three-call kernel program against its reference, over
  the extended reals.

  The kernel program factorises the symmetric normalisation: each layer scales every node's features by the node's
  weight d_j^{-1/2} (inside a matrix-product call), sums the scaled rows along the edges on the host, and a combining
  call adds the node's own scaled row, scales the total by d_i^{-1/2} and adds the bias (the first combine also
  rectifies and feeds the next matrix product; the two heads are computed side by side as one 64-column product). The
  reference multiplies every edge's row by d_src^{-1/2} · d_dst^{-1/2} and the node's own row by d_i^{-1}. On finite
  inputs every weight and every feature is a real number, distributivity of the product over the finite edge sums
  holds, and the two programs' results agree entry by entry.

  The three frames are the generated ones (the reference's is its run with the results dropped); the idealization
  rewrote nothing; the equality of results is assembled here from the two runs and the entry-by-entry readings.
-/
import proofs.«109903_j13417477833490_2_alg».proof.Defs
import proofs.«109903_j13417477833490_2_alg».proof.Proof.Gen.Kernel
import proofs.«109903_j13417477833490_2_alg».proof.Proof.Gen.Kernel.Skeleton
import proofs.«109903_j13417477833490_2_alg».proof.Proof.Gen.Kernel.Launch
import proofs.«109903_j13417477833490_2_alg».proof.Proof.Gen.Kernel.Points
import proofs.«109903_j13417477833490_2_alg».proof.Proof.Gen.Kernel.Frame
import proofs.«109903_j13417477833490_2_alg».proof.Proof.Gen.KernelIdeal
import proofs.«109903_j13417477833490_2_alg».proof.Proof.Gen.KernelIdeal.Skeleton
import proofs.«109903_j13417477833490_2_alg».proof.Proof.Gen.KernelIdeal.Launch
import proofs.«109903_j13417477833490_2_alg».proof.Proof.Gen.KernelIdeal.Points
import proofs.«109903_j13417477833490_2_alg».proof.Proof.Gen.KernelIdeal.Frame
import proofs.«109903_j13417477833490_2_alg».proof.Proof.Gen.ReferenceIdeal
import proofs.«109903_j13417477833490_2_alg».proof.Proof.Gen.Pre_finite_inputs
import proofs.«109903_j13417477833490_2_alg».proof.Proof.Gen.ReferenceIdeal.Run
import proofs.«109903_j13417477833490_2_alg».proof.Proof.Gen.ReferenceIdeal.Read
import proofs.«109903_j13417477833490_2_alg».proof.Proof.KernelRun
import proofs.«109903_j13417477833490_2_alg».proof.Proof.KernelResult
import proofs.«109903_j13417477833490_2_alg».proof.Proof.RefValue
import proofs.«109903_j13417477833490_2_alg».proof.Proof.Finite
import proofs.«109903_j13417477833490_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.Gcn Cert.RealMath

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments, under the precondition, both programs run and end with equal results:
    the kernel program's run names its results; the reference's run names its own; entry (p, q) of each result is the
    two-layer formula in the factorised, respectively the edge-normalised, form; the forms agree on real inputs. -/
theorem algebraic : Cert.algebraic_KernelIdeal_ReferenceIdeal := by
  intro m ρ m' ρ' hpre hagree
  refine ⟨fun c => Cert.KernelIdeal.Gen.W7 m ρ c (Proc.devRef .tc Cert.KernelIdeal.main_v41),
    fun c => Cert.KernelIdeal.Gen.W7 m ρ c (Proc.devRef .tc Cert.KernelIdeal.main_v42),
    Cert.KernelIdeal.Results.run_results m ρ, ?_⟩
  refine (θ_run Cert.ReferenceIdeal.defs _ _).mono (fun r h c => ?_) (Cert.ReferenceIdeal.Value.run (F := Ideal) m' ρ')
  obtain ⟨hx0, hx1, hx2, hx3, hx4, hx5, hx6⟩ := Cert.Finite.reals_of_pre _ _ _ _ _ _ _ _ (hpre c)
  obtain ⟨g0, g1, g2, g3, g4, g5, g6, g7⟩ := hagree c
  refine ⟨(h c).1.trans ?_, (h c).2.1.trans ?_, (h c).2.2⟩
  · rw [Cert.ReferenceIdeal.Read.val_main_v85_eq, g0, g1, g2, g3, g4, g7]
    funext i
    obtain ⟨p, q, rfl⟩ : ∃ (p : Fin 50000) (q : Fin 32), i = ix2 p q := ⟨i 0, i 1, eq_ix2 i⟩
    rw [Cert.ReferenceIdeal.Entries.v85_apply]
    simp only [Cert.ReferenceIdeal.Entries.v49_apply, Cert.ReferenceIdeal.Entries.v48_apply]
    rw [Cert.KernelIdeal.Entries.mu_apply]
    exact head_entry _ _ _ _ _ _ hx0 hx1 hx2 hx3 p q
  · rw [Cert.ReferenceIdeal.Read.val_main_v122_eq, g0, g1, g2, g5, g6, g7]
    funext i
    obtain ⟨p, q, rfl⟩ : ∃ (p : Fin 50000) (q : Fin 32), i = ix2 p q := ⟨i 0, i 1, eq_ix2 i⟩
    rw [Cert.ReferenceIdeal.Entries.v122_apply]
    simp only [Cert.ReferenceIdeal.Entries.v86_apply, Cert.ReferenceIdeal.Entries.v48_apply]
    rw [Cert.KernelIdeal.Entries.logstd_apply]
    exact head_entry _ _ _ _ _ _ hx0 hx1 hx2 hx5 p q

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
